-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x32 : Shape := ⟨3, ![8, 512, 32]⟩
abbrev S8x512 : Shape := ⟨2, ![8, 512]⟩
abbrev S128x128x32 : Shape := ⟨3, ![128, 128, 32]⟩
abbrev S128x128 : Shape := ⟨2, ![128, 128]⟩
abbrev S8x768 : Shape := ⟨2, ![8, 768]⟩
abbrev S128x768 : Shape := ⟨2, ![128, 768]⟩
abbrev S_ : Shape := ⟨0, ![]⟩

class Facts : Prop where
  bcast_S_S8x512x32 : S_.BroadcastsInDim S8x512x32 (![] : Fin 0 → Fin S8x512x32.rank)
  reducesTo_S8x512x32_S_d0_1_2 : S8x512x32.ReducesTo [0, 1, 2] S_
  h_S_ : 0 < S_.numel
  bcast_S_S128x128x32 : S_.BroadcastsInDim S128x128x32 (![] : Fin 0 → Fin S128x128x32.rank)
  reducesTo_S128x128x32_S_d0_1_2 : S128x128x32.ReducesTo [0, 1, 2] S_
  bcast_S_S8x768 : S_.BroadcastsInDim S8x768 (![] : Fin 0 → Fin S8x768.rank)
  reducesTo_S8x768_S_d0_1 : S8x768.ReducesTo [0, 1] S_
  bcast_S_S128x768 : S_.BroadcastsInDim S128x768 (![] : Fin 0 → Fin S128x768.rank)
  reducesTo_S128x768_S_d0_1 : S128x768.ReducesTo [0, 1] S_

variable [Facts]

def fn_part1 {F : FTy → Type} [FloatOps F] (main_v13 : IVec S_ 1) (main_v16 : IVec S128x768 1) : IVec S_ 1 :=
  let main_c_5 : IVec S_ 1 := constantI S_ 1 1#1
  let main_v17 : IVec S_ 1 := (fun x v => Host.reduce IntOp.andi x v reducesTo_S128x768_S_d0_1 h_S_) main_v16 main_c_5
  let main_v18 : IVec S_ 1 := andi main_v13 main_v17
  main_v18

def fn {F : FTy → Type} [FloatOps F] (main_arg0 : FVec F S8x512x32 .f32) (main_arg1 : IVec S8x512 32) (main_arg2 : IVec S8x512 32) (main_arg3 : FVec F S128x128x32 .f32) (main_arg4 : IVec S128x128 32) (main_arg5 : FVec F S8x768 .f32) (main_arg6 : FVec F S128x768 .f32) : IVec S_ 1 :=
  let main_v0 : FVec F S8x512x32 .f32 := Host.absf main_arg0
  let main_cst : FVec F S_ .f32 := constant S_ .f32 0x7F800000#32
  let main_v1 : FVec F S8x512x32 .f32 := broadcastInDim S8x512x32 ![] bcast_S_S8x512x32 main_cst
  let main_v2 : IVec S8x512x32 1 := cmpf .olt main_v0 main_v1
  let main_c : IVec S_ 1 := constantI S_ 1 1#1
  let main_v3 : IVec S_ 1 := (fun x v => Host.reduce IntOp.andi x v reducesTo_S8x512x32_S_d0_1_2 h_S_) main_v2 main_c
  let main_v4 : FVec F S128x128x32 .f32 := Host.absf main_arg3
  let main_cst_0 : FVec F S_ .f32 := constant S_ .f32 0x7F800000#32
  let main_v5 : FVec F S128x128x32 .f32 := broadcastInDim S128x128x32 ![] bcast_S_S128x128x32 main_cst_0
  let main_v6 : IVec S128x128x32 1 := cmpf .olt main_v4 main_v5
  let main_c_1 : IVec S_ 1 := constantI S_ 1 1#1
  let main_v7 : IVec S_ 1 := (fun x v => Host.reduce IntOp.andi x v reducesTo_S128x128x32_S_d0_1_2 h_S_) main_v6 main_c_1
  let main_v8 : IVec S_ 1 := andi main_v3 main_v7
  let main_v9 : FVec F S8x768 .f32 := Host.absf main_arg5
  let main_cst_2 : FVec F S_ .f32 := constant S_ .f32 0x7F800000#32
  let main_v10 : FVec F S8x768 .f32 := broadcastInDim S8x768 ![] bcast_S_S8x768 main_cst_2
  let main_v11 : IVec S8x768 1 := cmpf .olt main_v9 main_v10
  let main_c_3 : IVec S_ 1 := constantI S_ 1 1#1
  let main_v12 : IVec S_ 1 := (fun x v => Host.reduce IntOp.andi x v reducesTo_S8x768_S_d0_1 h_S_) main_v11 main_c_3
  let main_v13 : IVec S_ 1 := andi main_v8 main_v12
  let main_v14 : FVec F S128x768 .f32 := Host.absf main_arg6
  let main_cst_4 : FVec F S_ .f32 := constant S_ .f32 0x7F800000#32
  let main_v15 : FVec F S128x768 .f32 := broadcastInDim S128x768 ![] bcast_S_S128x768 main_cst_4
  let main_v16 : IVec S128x768 1 := cmpf .olt main_v14 main_v15
  fn_part1 (F := F) main_v13 main_v16
-- ==== Kernel.lean ====
abbrev S8x512x32 : Shape := ⟨3, ![8, 512, 32]⟩
abbrev S8x512 : Shape := ⟨2, ![8, 512]⟩
abbrev S128x128x32 : Shape := ⟨3, ![128, 128, 32]⟩
abbrev S128x128 : Shape := ⟨2, ![128, 128]⟩
abbrev S8x768 : Shape := ⟨2, ![8, 768]⟩
abbrev S128x768 : Shape := ⟨2, ![128, 768]⟩
abbrev S_ : Shape := ⟨0, ![]⟩
abbrev S8 : Shape := ⟨1, ![8]⟩
abbrev S8x1 : Shape := ⟨2, ![8, 1]⟩
abbrev S8x2 : Shape := ⟨2, ![8, 2]⟩
abbrev S1 : Shape := ⟨1, ![1]⟩
abbrev S32x128x128 : Shape := ⟨3, ![32, 128, 128]⟩
abbrev S32x16384 : Shape := ⟨2, ![32, 16384]⟩
abbrev S1x16384 : Shape := ⟨2, ![1, 16384]⟩
abbrev S8x512x1 : Shape := ⟨3, ![8, 512, 1]⟩
abbrev S8x1x512 : Shape := ⟨3, ![8, 1, 512]⟩
abbrev S8x1x128 : Shape := ⟨3, ![8, 1, 128]⟩
abbrev S1x128x32 : Shape := ⟨3, ![1, 128, 32]⟩
abbrev S1x128x1 : Shape := ⟨3, ![1, 128, 1]⟩
abbrev S1x1x128 : Shape := ⟨3, ![1, 1, 128]⟩
abbrev S1x128 : Shape := ⟨2, ![1, 128]⟩
abbrev S128x32 : Shape := ⟨2, ![128, 32]⟩
abbrev S128x16384 : Shape := ⟨2, ![128, 16384]⟩
abbrev S128x1 : Shape := ⟨2, ![128, 1]⟩
abbrev S128x128x128 : Shape := ⟨3, ![128, 128, 128]⟩
abbrev S8x128 : Shape := ⟨2, ![8, 128]⟩
abbrev S768x128 : Shape := ⟨2, ![768, 128]⟩
abbrev S128 : Shape := ⟨1, ![128]⟩

abbrev nBuf : Space → Nat
  | .hbm => 53
  | .vmem => 11
  | .smem => 0
  | _ => 0

abbrev bufTy : (tb : Table) → Fin (tcTables nBuf tb) → BufTy
  | .hbm, ⟨0, _⟩ => ⟨S8x512x32, .f32⟩
  | .hbm, ⟨1, _⟩ => ⟨S8x512, .i32⟩
  | .hbm, ⟨2, _⟩ => ⟨S8x512, .i32⟩
  | .hbm, ⟨3, _⟩ => ⟨S128x128x32, .f32⟩
  | .hbm, ⟨4, _⟩ => ⟨S128x128, .i32⟩
  | .hbm, ⟨5, _⟩ => ⟨S8x768, .f32⟩
  | .hbm, ⟨6, _⟩ => ⟨S128x768, .f32⟩
  | .hbm, ⟨7, _⟩ => ⟨S_, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x1, .i32⟩
  | .hbm, ⟨29, _⟩ => ⟨S8x2, .i32⟩
  | .hbm, ⟨30, _⟩ => ⟨S_, .i32⟩
  | .hbm, ⟨31, _⟩ => ⟨S8, .i32⟩
  | .hbm, ⟨32, _⟩ => ⟨S8x512, .i32⟩
  | .hbm, ⟨33, _⟩ => ⟨S8x512, .f32⟩
  | .hbm, ⟨34, _⟩ => ⟨S_, .i32⟩
  | .hbm, ⟨35, _⟩ => ⟨S1, .i32⟩
  | .hbm, ⟨36, _⟩ => ⟨S_, .f32⟩
  | .hbm, ⟨37, _⟩ => ⟨S8, .f32⟩
  | .hbm, ⟨38, _⟩ => ⟨S8x512, .f32⟩
  | .hbm, ⟨39, _⟩ => ⟨S8x512x32, .bf16⟩
  | .hbm, ⟨40, _⟩ => ⟨S32x128x128, .f32⟩
  | .hbm, ⟨41, _⟩ => ⟨S32x16384, .f32⟩
  | .hbm, ⟨42, _⟩ => ⟨S32x16384, .bf16⟩
  | .hbm, ⟨43, _⟩ => ⟨S1x16384, .i32⟩
  | .hbm, ⟨44, _⟩ => ⟨S8x512x1, .i32⟩
  | .hbm, ⟨45, _⟩ => ⟨S8x1x512, .f32⟩
  | .hbm, ⟨46, _⟩ => ⟨S8x1x128, .f32⟩
  | .hbm, ⟨47, _⟩ => ⟨S8x128, .f32⟩
  | .hbm, ⟨48, _⟩ => ⟨S768x128, .f32⟩
  | .hbm, ⟨49, _⟩ => ⟨S8x128, .f32⟩
  | .hbm, ⟨50, _⟩ => ⟨S8x128, .f32⟩
  | .hbm, ⟨51, _⟩ => ⟨S_, .f32⟩
  | .hbm, ⟨52, _⟩ => ⟨S128, .f32⟩
  | .local _ .vmem, ⟨0, _⟩ => ⟨S1x128x32, .bf16⟩
  | .local _ .vmem, ⟨1, _⟩ => ⟨S1x128x32, .bf16⟩
  | .local _ .vmem, ⟨2, _⟩ => ⟨S1x128x1, .i32⟩
  | .local _ .vmem, ⟨3, _⟩ => ⟨S1x128x1, .i32⟩
  | .local _ .vmem, ⟨4, _⟩ => ⟨S1x1x128, .f32⟩
  | .local _ .vmem, ⟨5, _⟩ => ⟨S1x1x128, .f32⟩
  | .local _ .vmem, ⟨6, _⟩ => ⟨S32x16384, .bf16⟩
  | .local _ .vmem, ⟨7, _⟩ => ⟨S1x16384, .i32⟩
  | .local _ .vmem, ⟨8, _⟩ => ⟨S1x1x128, .f32⟩
  | .local _ .vmem, ⟨9, _⟩ => ⟨S1x1x128, .f32⟩
  | .local _ .vmem, ⟨10, _⟩ => ⟨S1x128, .f32⟩
  | _, _ => ⟨S8x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_20 : BitVec 32 := 0#32
  let v31 : BitVec 1 := Scalar.cmpi .ne v30 c0_i32_20
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S32x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8x512_S8_d1 : S8x512.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S_S1 : S_.BroadcastsInDim S1 (![] : Fin 0 → Fin S1.rank)
  bitsLt_bf16_f32 : FTy.bits .bf16 < FTy.bits .f32
  transposes_S128x128x32_S32x128x128_2_0_1 : S128x128x32.Transposes [2, 0, 1] S32x128x128
  shapeCasts_S32x128x128_S32x16384 : S32x128x128.ShapeCasts S32x16384
  shapeCasts_S128x128_S1x16384 : S128x128.ShapeCasts S1x16384
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  inb_S32x16384_S32x16384_0_0 : ∀ a, (![0, 0] : Fin 2 → Nat) a + S32x16384.size a ≤ S32x16384.size a
  h_S32x16384 : 0 < S32x16384.numel
  shapeCasts_S32x16384_S32x16384 : S32x16384.ShapeCasts S32x16384
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S128x1_S128x16384 : S128x1.Broadcasts S128x16384
  broadcasts_S1x16384_S128x16384 : S1x16384.Broadcasts S128x16384
  shapeCasts_S128x16384_S128x128x128 : S128x16384.ShapeCasts S128x128x128
  reduces_S128x128x128_S128x128 : S128x128x128.Reduces [2] S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S8x1x128_S8x128 : S8x1x128.ShapeCasts S8x128
  transposes_S128x768_S768x128_1_0 : S128x768.Transposes [1, 0] S768x128
  reducesTo_S8x128_S128_d0 : S8x128.ReducesTo [0] S128
  scatter_S8x512_S8x2_S8_n_01_01_1_wf : ScatterDims.WF S8x512 S8x2 S8 [] [0, 1] [0, 1] 1
  scatter_S8x512_S1_S8_0_1_1_0_wf : ScatterDims.WF S8x512 S1 S8 [0] [1] [1] 0
  dot_S128x32_S32x16384_S128x16384_1_0_0_1_n_n_wf : DotDims.WF S128x32 S32x16384 S128x16384 [1] [0] [0] [1] [] []
  dot_S1x128_S128x128_S1x128_1_0_0_1_n_n_wf : DotDims.WF S1x128 S128x128 S1x128 [1] [0] [0] [1] [] []
  dot_S8x768_S768x128_S8x128_1_0_0_1_n_n_wf : DotDims.WF S8x768 S768x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32.size a ≤ S8x512x32.size a
  hwx0_0 : ∀ i : grid0.Coords, EltTy.bits .bf16 = 32 ∨ (Rect.block (s := S8x512x32) S1x128x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1.size a ≤ S8x512x1.size a
  hwx0_1 : ∀ i : grid0.Coords, EltTy.bits .i32 = 32 ∨ (Rect.block (s := S8x512x1) S1x128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x512.size a
  hwx0_2 : ∀ i : grid0.Coords, EltTy.bits .f32 = 32 ∨ (Rect.block (s := S8x1x512) S1x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16384.size a ≤ S32x16384.size a
  hwx0_3 : ∀ i : grid0.Coords, EltTy.bits .bf16 = 32 ∨ (Rect.block (s := S32x16384) S32x16384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16384.size a ≤ S1x16384.size a
  hwx0_4 : ∀ i : grid0.Coords, EltTy.bits .i32 = 32 ∨ (Rect.block (s := S1x16384) S1x16384.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)

variable [Facts₀]

def scatter_S8x512_S8x2_S8_n_01_01_1 : ScatterDims S8x512 S8x2 S8 where
  updateWindowDims := []
  insertedWindowDims := [0, 1]
  scatterDimsToOperandDims := [0, 1]
  indexVectorDim := 1
  wf := scatter_S8x512_S8x2_S8_n_01_01_1_wf
def scatter_S8x512_S1_S8_0_1_1_0 : ScatterDims S8x512 S1 S8 where
  updateWindowDims := [0]
  insertedWindowDims := [1]
  scatterDimsToOperandDims := [1]
  indexVectorDim := 0
  wf := scatter_S8x512_S1_S8_0_1_1_0_wf
def dot_S128x32_S32x16384_S128x16384_1_0_0_1_n_n : DotDims S128x32 S32x16384 S128x16384 where
  lhsContracting := [1]
  rhsContracting := [0]
  lhsNonContracting := [0]
  rhsNonContracting := [1]
  lhsBatch := []
  rhsBatch := []
  wf := dot_S128x32_S32x16384_S128x16384_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8x768_S768x128_S8x128_1_0_0_1_n_n : DotDims S8x768 S768x128 S8x128 where
  lhsContracting := [1]
  rhsContracting := [0]
  lhsNonContracting := [0]
  rhsNonContracting := [1]
  lhsBatch := []
  rhsBatch := []
  wf := dot_S8x768_S768x128_S8x128_1_0_0_1_n_n_wf

abbrev win0_0 : Pipeline.Window sig grid0 :=
  Pipeline.Window.ofSpec (Memref.whole main_v23) S1x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S32x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x16384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x512x32 : Shape := ⟨3, ![8, 512, 32]⟩
abbrev S8x512 : Shape := ⟨2, ![8, 512]⟩
abbrev S128x128x32 : Shape := ⟨3, ![128, 128, 32]⟩
abbrev S128x128 : Shape := ⟨2, ![128, 128]⟩
abbrev S8x768 : Shape := ⟨2, ![8, 768]⟩
abbrev S128x768 : Shape := ⟨2, ![128, 768]⟩
abbrev S_ : Shape := ⟨0, ![]⟩
abbrev S8 : Shape := ⟨1, ![8]⟩
abbrev S8x1 : Shape := ⟨2, ![8, 1]⟩
abbrev S8x2 : Shape := ⟨2, ![8, 2]⟩
abbrev S8x512x1x1 : Shape := ⟨4, ![8, 512, 1, 1]⟩
abbrev S1x1x128x128 : Shape := ⟨4, ![1, 1, 128, 128]⟩
abbrev S8x512x128x128 : Shape := ⟨4, ![8, 512, 128, 128]⟩
abbrev S8x512x128 : Shape := ⟨3, ![8, 512, 128]⟩
abbrev S8x512x1 : Shape := ⟨3, ![8, 512, 1]⟩
abbrev S8x511x128 : Shape := ⟨3, ![8, 511, 128]⟩
abbrev S8x128 : Shape := ⟨2, ![8, 128]⟩
abbrev S768x128 : Shape := ⟨2, ![768, 128]⟩
abbrev S128 : Shape := ⟨1, ![128]⟩

abbrev nBuf : Space → Nat
  | .hbm => 55
  | .vmem => 0
  | .smem => 0
  | _ => 0

abbrev bufTy : (tb : Table) → Fin (tcTables nBuf tb) → BufTy
  | .hbm, ⟨0, _⟩ => ⟨S8x512x32, .f32⟩
  | .hbm, ⟨1, _⟩ => ⟨S8x512, .i32⟩
  | .hbm, ⟨2, _⟩ => ⟨S8x512, .i32⟩
  | .hbm, ⟨3, _⟩ => ⟨S128x128x32, .f32⟩
  | .hbm, ⟨4, _⟩ => ⟨S128x128, .i32⟩
  | .hbm, ⟨5, _⟩ => ⟨S8x768, .f32⟩
  | .hbm, ⟨6, _⟩ => ⟨S128x768, .f32⟩
  | .hbm, ⟨7, _⟩ => ⟨S_, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i1⟩
  | .hbm, ⟨23, _⟩ => ⟨S_, .i32⟩
  | .hbm, ⟨24, _⟩ => ⟨S8, .i32⟩
  | .hbm, ⟨25, _⟩ => ⟨S8, .i32⟩
  | .hbm, ⟨26, _⟩ => ⟨S8, .i32⟩
  | .hbm, ⟨27, _⟩ => ⟨S8x1, .i32⟩
  | .hbm, ⟨28, _⟩ => ⟨S8x1, .i32⟩
  | .hbm, ⟨29, _⟩ => ⟨S8x2, .i32⟩
  | .hbm, ⟨30, _⟩ => ⟨S_, .i32⟩
  | .hbm, ⟨31, _⟩ => ⟨S8, .i32⟩
  | .hbm, ⟨32, _⟩ => ⟨S8x512, .i32⟩
  | .hbm, ⟨33, _⟩ => ⟨S8x512x1x1, .i32⟩
  | .hbm, ⟨34, _⟩ => ⟨S1x1x128x128, .i32⟩
  | .hbm, ⟨35, _⟩ => ⟨S8x512x128x128, .i32⟩
  | .hbm, ⟨36, _⟩ => ⟨S8x512x128x128, .i32⟩
  | .hbm, ⟨37, _⟩ => ⟨S8x512x128x128, .i1⟩
  | .hbm, ⟨38, _⟩ => ⟨S8x512x128x128, .f32⟩
  | .hbm, ⟨39, _⟩ => ⟨S8x512x128x128, .f32⟩
  | .hbm, ⟨40, _⟩ => ⟨S8x512x128x128, .f32⟩
  | .hbm, ⟨41, _⟩ => ⟨S_, .f32⟩
  | .hbm, ⟨42, _⟩ => ⟨S8x512x128, .f32⟩
  | .hbm, ⟨43, _⟩ => ⟨S8x512, .f32⟩
  | .hbm, ⟨44, _⟩ => ⟨S8x512x1, .f32⟩
  | .hbm, ⟨45, _⟩ => ⟨S8x512x128, .f32⟩
  | .hbm, ⟨46, _⟩ => ⟨S8x512x128, .f32⟩
  | .hbm, ⟨47, _⟩ => ⟨S8x511x128, .f32⟩
  | .hbm, ⟨48, _⟩ => ⟨S_, .f32⟩
  | .hbm, ⟨49, _⟩ => ⟨S8x128, .f32⟩
  | .hbm, ⟨50, _⟩ => ⟨S768x128, .f32⟩
  | .hbm, ⟨51, _⟩ => ⟨S8x128, .f32⟩
  | .hbm, ⟨52, _⟩ => ⟨S8x128, .f32⟩
  | .hbm, ⟨53, _⟩ => ⟨S_, .f32⟩
  | .hbm, ⟨54, _⟩ => ⟨S128, .f32⟩
  | _, _ => ⟨S8x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  reducesTo_S8x512_S8_d1 : S8x512.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  concatenates_S8x1_S8x1_S8x2_d1 : Shape.Concatenates [S8x1, S8x1] S8x2 1
  bcast_S8x512_S8x512x1x1_0_1 : S8x512.BroadcastsInDim S8x512x1x1 (![0, 1] : Fin 2 → Fin S8x512x1x1.rank)
  bcast_S128x128_S1x1x128x128_2_3 : S128x128.BroadcastsInDim S1x1x128x128 (![2, 3] : Fin 2 → Fin S1x1x128x128.rank)
  bcast_S8x512x1x1_S8x512x128x128_0_1_2_3 : S8x512x1x1.BroadcastsInDim S8x512x128x128 (![0, 1, 2, 3] : Fin 4 → Fin S8x512x128x128.rank)
  bcast_S1x1x128x128_S8x512x128x128_0_1_2_3 : S1x1x128x128.BroadcastsInDim S8x512x128x128 (![0, 1, 2, 3] : Fin 4 → Fin S8x512x128x128.rank)
  reducesTo_S8x512x128x128_S8x512x128_d3 : S8x512x128x128.ReducesTo [3] S8x512x128
  bcast_S8x512_S8x512x1_0_1 : S8x512.BroadcastsInDim S8x512x1 (![0, 1] : Fin 2 → Fin S8x512x1.rank)
  bcast_S8x512x1_S8x512x128_0_1_2 : S8x512x1.BroadcastsInDim S8x512x128 (![0, 1, 2] : Fin 3 → Fin S8x512x128.rank)
  slices_S8x512x128_S8x511x128_0_1_0 : S8x512x128.Slices ![0, 1, 0] S8x511x128
  reducesTo_S8x511x128_S8x128_d1 : S8x511x128.ReducesTo [1] S8x128
  transposes_S128x768_S768x128_1_0 : S128x768.Transposes [1, 0] S768x128
  reducesTo_S8x128_S128_d0 : S8x128.ReducesTo [0] S128
  scatter_S8x512_S8x2_S8_n_01_01_1_wf : ScatterDims.WF S8x512 S8x2 S8 [] [0, 1] [0, 1] 1
  dot_S8x512x32_S128x128x32_S8x512x128x128_2_2_01_01_n_n_wf : DotDims.WF S8x512x32 S128x128x32 S8x512x128x128 [2] [2] [0, 1] [0, 1] [] []
  dot_S8x768_S768x128_S8x128_1_0_0_1_n_n_wf : DotDims.WF S8x768 S768x128 S8x128 [1] [0] [0] [1] [] []

variable [Facts₀]

def scatter_S8x512_S8x2_S8_n_01_01_1 : ScatterDims S8x512 S8x2 S8 where
  updateWindowDims := []
  insertedWindowDims := [0, 1]
  scatterDimsToOperandDims := [0, 1]
  indexVectorDim := 1
  wf := scatter_S8x512_S8x2_S8_n_01_01_1_wf
def dot_S8x512x32_S128x128x32_S8x512x128x128_2_2_01_01_n_n : DotDims S8x512x32 S128x128x32 S8x512x128x128 where
  lhsContracting := [2]
  rhsContracting := [2]
  lhsNonContracting := [0, 1]
  rhsNonContracting := [0, 1]
  lhsBatch := []
  rhsBatch := []
  wf := dot_S8x512x32_S128x128x32_S8x512x128x128_2_2_01_01_n_n_wf
def dot_S8x768_S768x128_S8x128_1_0_0_1_n_n : DotDims S8x768 S768x128 S8x128 where
  lhsContracting := [1]
  rhsContracting := [0]
  lhsNonContracting := [0]
  rhsNonContracting := [1]
  lhsBatch := []
  rhsBatch := []
  wf := dot_S8x768_S768x128_S8x128_1_0_0_1_n_n_wf

class Facts : Prop extends Facts₀ where

variable [Facts]
-- ==== Proof.Cases.lean ====
/-
  What one run of the kernel body leaves behind, in each of its three control cases.

  A query row's 512 tokens are visited in four blocks.  The body keeps running totals (one per document) in a
  scratch buffer that survives from one grid point to the next:
    * at the first block of a row it stores zeros into the totals, reads them back, and stores
      `zeros + the block's contribution`;
    * at a middle block it stores `the totals it found + the block's contribution`;
    * at the last block it does the same and then copies the totals into the output block.
  In every case the store covers the whole buffer, so what the buffer holds afterwards is the stored value itself,
  and every load reads a whole buffer, so the loaded values are the buffers' contents.
-/
import proofs.«107947_j62319975465252_2_alg».proof.Proof.Gen.KernelIdeal.Frame
import Idealize.ShloMosaic.Lib.Pipeline.Value
import Idealize.ShloMosaic.Lib.Tactic

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle block: the totals become the totals found plus the block's contribution. -/
theorem totals_middle (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x1x128 .f32) (harg4 : arg4.IsWhole) (arg5 : Memref sig .tc .vmem S32x16384 .bf16) (harg5 : arg5.IsWhole) (arg6 : Memref sig .tc .vmem S1x16384 .i32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : ¬cond0_1 i) (x0 : Vec F S1x128x32 .bf16) (x1 : Vec F S1x128x1 .i32) (x2 : Vec F S1x1x128 .f32) (x3 : Vec F S32x16384 .bf16) (x4 : Vec F S1x16384 .i32) (xs0 : Vec F S1x128 .f32) :
    sout0_B_0 c i arg2 harg2 arg3 harg3 arg4 harg4 arg5 harg5 arg6 harg6 arg7 harg7 arg8 harg8 hc0 hc1 x0 x1 x2 x3 x4 xs0 = k0_pay3 x0 x3 x1 x4 x2 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg4.read_unread, harg5.read_unread, harg6.read_unread, harg8.read_unread, View.ld_unit_zero (S := S1x128x32) hz3, View.ld_unit_zero (S := S32x16384) hz2, View.ld_unit_zero (S := S1x128x1) hz3, View.ld_unit_zero (S := S1x16384) hz2, View.ld_unit_zero (S := S1x1x128) hz3, View.ld_unit_zero (S := S1x128) hz2]

/-- The first block of a row: the totals become the zero block plus the block's contribution (the zeros are stored,
    then read back through the store). -/
theorem totals_first (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x1x128 .f32) (harg4 : arg4.IsWhole) (arg5 : Memref sig .tc .vmem S32x16384 .bf16) (harg5 : arg5.IsWhole) (arg6 : Memref sig .tc .vmem S1x16384 .i32) (harg6 : arg6.IsWhole) (arg7 : Memref sig .tc .vmem S1x1x128 .f32) (harg7 : arg7.IsWhole) (arg8 : Memref sig .tc .vmem S1x128 .f32) (harg8 : arg8.IsWhole) (hc0 : cond0_0 i) (hc1 : ¬cond0_1 i) (x0 : Vec F S1x128x32 .bf16) (x1 : Vec F S1x128x1 .i32) (x2 : Vec F S1x1x128 .f32) (x3 : Vec F S32x16384 .bf16) (x4 : Vec F S1x16384 .i32) :
    sout0_A_0 c i arg2 harg2 arg3 harg3 arg4 harg4 arg5 harg5 arg6 harg6 arg7 harg7 arg8 harg8 hc0 hc1 x0 x1 x2 x3 x4 = k0_pay3 x0 x3 x1 x4 x2 k0_pay2 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x128) hz2, View.readCov_unit_zero (S := S1x128) _ hz2]
  simp only [View.readAt_eq_ld, harg2.read_unread, harg3.read_unread, harg4.read_unread, harg5.read_unread, harg6.read_unread, harg8.read_unread, View.ld_unit_zero (S := S1x128x32) hz3, View.ld_unit_zero (S := S32x16384) hz2, View.ld_unit_zero (S := S1x128x1) hz3, View.ld_unit_zero (S := S1x16384) hz2, View.ld_unit_zero (S := S1x1x128) hz3, View.ld_unit_zero (S := S1x128) hz2]

/-- The last block of a row: the totals as at a middle block, -/
theorem totals_last (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x1x128 .f32) (harg4 : arg4.IsWhole) (arg5 : Memref sig .tc .vmem S32x16384 .bf16) (harg5 : arg5.IsWhole) (arg6 : Memref sig .tc .vmem S1x16384 .i32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : cond0_1 i) (x0 : Vec F S1x128x32 .bf16) (x1 : Vec F S1x128x1 .i32) (x2 : Vec F S1x1x128 .f32) (x3 : Vec F S32x16384 .bf16) (x4 : Vec F S1x16384 .i32) (xs0 : Vec F S1x128 .f32) :
    sout0_C_0 c i arg2 harg2 arg3 harg3 arg4 harg4 arg5 harg5 arg6 harg6 arg7 harg7 arg8 harg8 hc0 hc1 x0 x1 x2 x3 x4 xs0 = k0_pay3 x0 x3 x1 x4 x2 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread, harg6.read_unread, harg8.read_unread, View.ld_unit_zero (S := S1x128x32) hz3, View.ld_unit_zero (S := S32x16384) hz2, View.ld_unit_zero (S := S1x128x1) hz3, View.ld_unit_zero (S := S1x16384) hz2, View.ld_unit_zero (S := S1x1x128) hz3, View.ld_unit_zero (S := S1x128) hz2]

/-- and the output block holds those totals (read back through the store that wrote them). -/
theorem output_last (c : Dev nD) (i : grid0.Coords) (arg2 : Memref sig .tc .vmem S1x128x32 .bf16) (harg2 : arg2.IsWhole) (arg3 : Memref sig .tc .vmem S1x128x1 .i32) (harg3 : arg3.IsWhole) (arg4 : Memref sig .tc .vmem S1x1x128 .f32) (harg4 : arg4.IsWhole) (arg5 : Memref sig .tc .vmem S32x16384 .bf16) (harg5 : arg5.IsWhole) (arg6 : Memref sig .tc .vmem S1x16384 .i32) (harg6 : arg6.IsWhole) (arg7 : Memref sig .tc .vmem S1x1x128 .f32) (harg7 : arg7.IsWhole) (arg8 : Memref sig .tc .vmem S1x128 .f32) (harg8 : arg8.IsWhole) (hc0 : ¬cond0_0 i) (hc1 : cond0_1 i) (x0 : Vec F S1x128x32 .bf16) (x1 : Vec F S1x128x1 .i32) (x2 : Vec F S1x1x128 .f32) (x3 : Vec F S32x16384 .bf16) (x4 : Vec F S1x16384 .i32) (xs0 : Vec F S1x128 .f32) :
    out0_C_5 c i arg2 harg2 arg3 harg3 arg4 harg4 arg5 harg5 arg6 harg6 arg7 harg7 arg8 harg8 hc0 hc1 x0 x1 x2 x3 x4 xs0 = k0_pay1 (k0_pay3 x0 x3 x1 x4 x2 xs0) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3, View.readCov_unit_zero (S := S1x128) _ hz2]
  simp only [View.readAt_eq_ld, harg2.read_unread, harg3.read_unread, harg4.read_unread, harg5.read_unread, harg6.read_unread, harg8.read_unread, View.ld_unit_zero (S := S1x128x32) hz3, View.ld_unit_zero (S := S32x16384) hz2, View.ld_unit_zero (S := S1x128x1) hz3, View.ld_unit_zero (S := S1x16384) hz2, View.ld_unit_zero (S := S1x1x128) hz3, View.ld_unit_zero (S := S1x128) hz2]

end Cert.KernelIdeal.Cases

end
-- ==== Proof.Totals.lean ====
/-
  The running totals across a query row's four blocks.

  The grid visits the rows' blocks in order: point `n` is block `n mod 4` of row `n / 4`.  By the three case
  values (Cases.lean) the totals after point `n` are: at a row's first block the zero block plus that block's
  contribution; at every other block the totals after point `n - 1` plus that block's contribution
  (`totals`, `carried_eq`, by induction on the point).  At a row's last block the output block receives the totals
  (`output_eq`).  So the output of a row is the zero block with the four blocks' contributions added in order
  (`totals_row`).
-/
import proofs.«107947_j62319975465252_2_alg».proof.Proof.Cases

noncomputable section

namespace Cert.KernelIdeal.Totals

open Idealize.ShloMosaic Idealize.ShloMosaic.TcCoe Idealize.SL.Sem
open Cert.KernelIdeal Cert.KernelIdeal.Gen Cert.KernelIdeal.Cases

variable {F : FTy → Type} [FloatOps F]
variable (m : (ℓ : Loc nD τ sig) → Buf (Elt F) ℓ)

/-- The totals the body stores at point `t` when it finds the totals `acc`: the stored value over the point's blocks. -/
def step (c : Dev nD) (t : Fin cfg0.N) (acc : Vec F S1x128 .f32) : Vec F S1x128 .f32 :=
  k0_pay3 (iblk m c 0 t) (iblk m c 3 t) (iblk m c 1 t) (iblk m c 4 t) (iblk m c 2 t) acc

/-- The totals after point `n`: started from the zero block at each row's first block, carried otherwise. -/
def totals (c : Dev nD) : (n : ℕ) → n < cfg0.N → Vec F S1x128 .f32
  | 0, h => step m c ⟨0, h⟩ k0_pay2
  | n + 1, h => if (n + 1) % 4 = 0 then step m c ⟨n + 1, h⟩ k0_pay2
      else step m c ⟨n + 1, h⟩ (totals c n (Nat.lt_of_succ_lt h))

theorem totals_first_block (c : Dev nD) (n : ℕ) (h : n < cfg0.N) (h0 : n % 4 = 0) :
    totals m c n h = step m c ⟨n, h⟩ k0_pay2 := by
  cases n with
  | zero => rfl
  | succ n => exact if_pos h0

theorem totals_later_block (c : Dev nD) (n : ℕ) (h : n + 1 < cfg0.N) (h0 : ¬(n + 1) % 4 = 0) :
    totals m c (n + 1) h = step m c ⟨n + 1, h⟩ (totals m c n (Nat.lt_of_succ_lt h)) :=
  if_neg h0

/-- The scratch buffer's contents after point `n`, as the frame run found them, are these totals. -/
theorem carried_eq (c : Dev nD) : ∀ (n : ℕ) (h : n < cfg0.N), (outsAt0 m c n h).2 = totals m c n h
  | 0, h => by
    rw [outsAt0_A m c ⟨0, h⟩ rfl (by show ¬(0 % 4 = 3); decide)]
    dsimp only
    exact totals_first ..
  | n + 1, h => by
    by_cases h0 : (n + 1) % 4 = 0
    · have h1 : ¬(n + 1) % 4 = 3 := by omega
      rw [outsAt0_A m c ⟨n + 1, h⟩ h0 h1, totals_first_block m c (n + 1) h h0]
      dsimp only
      exact totals_first ..
    · rw [totals_later_block m c n h h0]
      by_cases h1 : (n + 1) % 4 = 3
      · rw [outsAt0_C m c ⟨n + 1, h⟩ h0 h1]
        dsimp only
        refine (totals_last ..).trans ?_
        show step m c ⟨n + 1, h⟩ (outsAt0 m c n _).2 = step m c ⟨n + 1, h⟩ (totals m c n _)
        rw [carried_eq c n]
      · rw [outsAt0_B m c ⟨n + 1, h⟩ h0 h1]
        dsimp only
        refine (totals_middle ..).trans ?_
        show step m c ⟨n + 1, h⟩ (outsAt0 m c n _).2 = step m c ⟨n + 1, h⟩ (totals m c n _)
        rw [carried_eq c n]

/-- At a row's last block the output block holds the totals after that point, with a unit axis put back. -/
theorem output_eq (c : Dev nD) (t : Fin cfg0.N) (h3 : t.val % 4 = 3) :
    (outsAt0 m c t.val t.isLt).1 = k0_pay1 (totals m c t.val t.isLt) := by
  obtain ⟨n, hn⟩ := t
  cases n with
  | zero => exact absurd h3 (by show ¬(0 % 4 = 3); decide)
  | succ n =>
    have h0 : ¬(n + 1) % 4 = 0 := by dsimp only at h3; omega
    rw [outsAt0_C m c ⟨n + 1, hn⟩ h0 h3]
    dsimp only
    refine (output_last ..).trans ?_
    show k0_pay1 (step m c ⟨n + 1, hn⟩ (outsAt0 m c n _).2) = k0_pay1 (totals m c (n + 1) hn)
    rw [carried_eq m c n, totals_later_block m c n hn h0]

/-- The totals after a row's last block: the zero block with the row's four contributions added in order. -/
theorem totals_row (c : Dev nD) (k : ℕ) (h : k + 3 < cfg0.N) (h0 : k % 4 = 0) :
    totals m c (k + 3) h
      = step m c ⟨k + 3, h⟩ (step m c ⟨k + 2, by omega⟩ (step m c ⟨k + 1, by omega⟩ (step m c ⟨k, by omega⟩ k0_pay2))) := by
  rw [totals_later_block m c (k + 2) h (by omega), totals_later_block m c (k + 1) (by omega) (by omega),
    totals_later_block m c k (by omega) (by omega), totals_first_block m c k (by omega) h0]

end Cert.KernelIdeal.Totals

end
-- ==== Proof.Blocks.lean ====
/-
  Which entries of the arrays a grid point's blocks hold.

  Point `t` of the 8 × 4 grid is block `t mod 4` of query row `t / 4`.  Its block of query tokens holds the tokens
  `128 (t mod 4) + s` of that row (their coordinates, their ids, their weights); the document arrays are held whole
  at every point.  A block's coordinate on an axis is always the block index times the block size plus the
  coordinate inside the block; the block indices are decided once over the 32 grid points.
-/
import proofs.«107947_j62319975465252_2_alg».proof.Proof.Gen.KernelIdeal.Frame
import Idealize.ShloMosaic.Lib.Pipeline.Value

noncomputable section

namespace Cert.KernelIdeal.Blocks

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The block indices of the three moving windows and of the output window at every grid point. -/
theorem index_tokens : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem index_ids : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)
theorem index_weights : ∀ t : Fin cfg0.N, win0_2.index t 0 = t.val / 4 ∧ win0_2.index t 1 = 0 ∧ win0_2.index t 2 = t.val % 4 :=
  (by decide +kernel : ∀ t : Fin grid0.N, win0_2.index t 0 = t.val / 4 ∧ win0_2.index t 1 = 0 ∧ win0_2.index t 2 = t.val % 4)
theorem index_docs : ∀ t : Fin cfg0.N, win0_3.index t 0 = 0 ∧ win0_3.index t 1 = 0 :=
  (by decide +kernel : ∀ t : Fin grid0.N, win0_3.index t 0 = 0 ∧ win0_3.index t 1 = 0)
theorem index_doc_ids : ∀ t : Fin cfg0.N, win0_4.index t 0 = 0 ∧ win0_4.index t 1 = 0 :=
  (by decide +kernel : ∀ t : Fin grid0.N, win0_4.index t 0 = 0 ∧ win0_4.index t 1 = 0)
theorem index_out : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)

/-- The block of query tokens at point `t`: entry `(0, s, d)` is the array's at row `t / 4`, token `128 (t mod 4) + s`. -/
theorem block_tokens (c : Dev nD) (t : Fin cfg0.N) (y : S1x128x32.Idx) (i : S8x512x32.Idx)
    (h0 : (i 0).val = t.val / 4) (h1 : (i 1).val = 128 * (t.val % 4) + (y 1).val) (h2 : (i 2).val = (y 2).val) :
    (iblk m c 0 t : S1x128x32.Idx → F .bf16) y = (V m c main_v23 : S8x512x32.Idx → F .bf16) i := by
  have hy0 : (y 0).val = 0 := by have h : (y 0).val < 1 := (y 0).isLt; omega
  unfold iblk
  rw [View.read_apply]
  refine congrArg (V m c main_v23 : S8x512x32.Idx → F .bf16) (funext fun a => Fin.ext ?_)
  match a with
  | ⟨0, _⟩ => show win0_0.index t 0 * 1 + 1 * (y 0).val = (i 0).val; rw [(index_tokens t).1]; omega
  | ⟨1, _⟩ => show win0_0.index t 1 * 128 + 1 * (y 1).val = (i 1).val; rw [(index_tokens t).2.1]; omega
  | ⟨2, _⟩ => show win0_0.index t 2 * 32 + 1 * (y 2).val = (i 2).val; rw [(index_tokens t).2.2]; omega

/-- The block of query token ids at point `t`. -/
theorem block_ids (c : Dev nD) (t : Fin cfg0.N) (y : S1x128x1.Idx) (i : S8x512x1.Idx)
    (h0 : (i 0).val = t.val / 4) (h1 : (i 1).val = 128 * (t.val % 4) + (y 1).val) :
    (iblk m c 1 t : S1x128x1.Idx → BitVec 32) y = (V m c main_v28 : S8x512x1.Idx → BitVec 32) i := by
  have hy0 : (y 0).val = 0 := by have h : (y 0).val < 1 := (y 0).isLt; omega
  have hy2 : (y 2).val = 0 := by have h : (y 2).val < 1 := (y 2).isLt; omega
  have hi2 : (i 2).val = 0 := by have h : (i 2).val < 1 := (i 2).isLt; omega
  unfold iblk
  rw [View.read_apply]
  refine congrArg (V m c main_v28 : S8x512x1.Idx → BitVec 32) (funext fun a => Fin.ext ?_)
  match a with
  | ⟨0, _⟩ => show win0_1.index t 0 * 1 + 1 * (y 0).val = (i 0).val; rw [(index_ids t).1]; omega
  | ⟨1, _⟩ => show win0_1.index t 1 * 128 + 1 * (y 1).val = (i 1).val; rw [(index_ids t).2.1]; omega
  | ⟨2, _⟩ => show win0_1.index t 2 * 1 + 1 * (y 2).val = (i 2).val; rw [(index_ids t).2.2]; omega

/-- The block of query token weights at point `t`. -/
theorem block_weights (c : Dev nD) (t : Fin cfg0.N) (y : S1x1x128.Idx) (i : S8x1x512.Idx)
    (h0 : (i 0).val = t.val / 4) (h2 : (i 2).val = 128 * (t.val % 4) + (y 2).val) :
    (iblk m c 2 t : S1x1x128.Idx → F .f32) y = (V m c main_v29 : S8x1x512.Idx → F .f32) i := by
  have hy0 : (y 0).val = 0 := by have h : (y 0).val < 1 := (y 0).isLt; omega
  have hy1 : (y 1).val = 0 := by have h : (y 1).val < 1 := (y 1).isLt; omega
  have hi1 : (i 1).val = 0 := by have h : (i 1).val < 1 := (i 1).isLt; omega
  unfold iblk
  rw [View.read_apply]
  refine congrArg (V m c main_v29 : S8x1x512.Idx → F .f32) (funext fun a => Fin.ext ?_)
  match a with
  | ⟨0, _⟩ => show win0_2.index t 0 * 1 + 1 * (y 0).val = (i 0).val; rw [(index_weights t).1]; omega
  | ⟨1, _⟩ => show win0_2.index t 1 * 1 + 1 * (y 1).val = (i 1).val; rw [(index_weights t).2.1]; omega
  | ⟨2, _⟩ => show win0_2.index t 2 * 128 + 1 * (y 2).val = (i 2).val; rw [(index_weights t).2.2]; omega

/-- The document tokens are held whole at every point. -/
theorem block_docs (c : Dev nD) (t : Fin cfg0.N) (y : S32x16384.Idx) :
    (iblk m c 3 t : S32x16384.Idx → F .bf16) y = (V m c main_v26 : S32x16384.Idx → F .bf16) y := by
  unfold iblk
  rw [View.read_apply]
  refine congrArg (V m c main_v26 : S32x16384.Idx → F .bf16) (funext fun a => Fin.ext ?_)
  match a with
  | ⟨0, _⟩ => show win0_3.index t 0 * 32 + 1 * (y 0).val = (y 0).val; rw [(index_docs t).1]; omega
  | ⟨1, _⟩ => show win0_3.index t 1 * 16384 + 1 * (y 1).val = (y 1).val; rw [(index_docs t).2]; omega

/-- The document token ids are held whole at every point. -/
theorem block_doc_ids (c : Dev nD) (t : Fin cfg0.N) (y : S1x16384.Idx) :
    (iblk m c 4 t : S1x16384.Idx → BitVec 32) y = (V m c main_v27 : S1x16384.Idx → BitVec 32) y := by
  unfold iblk
  rw [View.read_apply]
  refine congrArg (V m c main_v27 : S1x16384.Idx → BitVec 32) (funext fun a => Fin.ext ?_)
  match a with
  | ⟨0, _⟩ => show win0_4.index t 0 * 1 + 1 * (y 0).val = (y 0).val; rw [(index_doc_ids t).1]; omega
  | ⟨1, _⟩ => show win0_4.index t 1 * 16384 + 1 * (y 1).val = (y 1).val; rw [(index_doc_ids t).2]; omega

end Cert.KernelIdeal.Blocks

end
-- ==== Proof.Entry.lean ====
/-
  What the arrays hold when the kernel is launched, in terms of the program's arguments.

  Before the launch the host rounds the query tokens to the narrower float format; lays the document tokens out
  coordinate-major over one flattened axis of `128 · 128` positions and rounds them; flattens the document ids the
  same way; gives the query ids a trailing unit axis; and prepares the query weights: the attention mask with one
  position per row cleared (`rowMask`, the same operations in both programs, never opened here), read as numbers,
  with column 0 then set to zero, and a unit axis inserted.
-/
import proofs.«107947_j62319975465252_2_alg».proof.Proof.Gen.KernelIdeal.Frame
import Idealize.ShloMosaic.Lib.Pipeline.Value
import Idealize.ShloMosaic.Lib.StableHlo.Run

noncomputable section

namespace Cert.KernelIdeal.Entry

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The attention mask with, in each row, the position `(number of ones in the row) - 1` (counted from the end when that
    is negative) set to zero: the host's scatter of zeros at the index pairs `(row, position)`. -/
def rowMask (x2 : S8x512.Idx → BitVec 32) : S8x512.Idx → BitVec 32 :=
  Host.scatter scatter_S8x512_S8x2_S8_n_01_01_1 (fun _ b => b) x2
    (concatenate S8x2 1
      [⟨S8x1,
          broadcastInDim S8x1 ![0] bcast_S8_S8x1_0
            (select
              (cmpi CmpIPredicate.slt (iotaInDim S8 32 0) (broadcastInDim S8 ![] bcast_S_S8 (constantI S_ 32 0#32)))
              (addi (iotaInDim S8 32 0) (broadcastInDim S8 ![] bcast_S_S8 (constantI S_ 32 8#32)))
              (iotaInDim S8 32 0))⟩,
        ⟨S8x1,
          broadcastInDim S8x1 ![0] bcast_S8_S8x1_0
            (select
              (cmpi CmpIPredicate.slt
                (subi
                  (Host.reduce IntOp.addi x2 (constantI S_ 32 0#32) reducesTo_S8x512_S8_d1 h_S_)
                  (broadcastInDim S8 ![] bcast_S_S8 (constantI S_ 32 1#32)))
                (broadcastInDim S8 ![] bcast_S_S8 (constantI S_ 32 0#32)))
              (addi
                (subi
                  (Host.reduce IntOp.addi x2 (constantI S_ 32 0#32) reducesTo_S8x512_S8_d1 h_S_)
                  (broadcastInDim S8 ![] bcast_S_S8 (constantI S_ 32 1#32)))
                (broadcastInDim S8 ![] bcast_S_S8 (constantI S_ 32 512#32)))
              (subi
                (Host.reduce IntOp.addi x2 (constantI S_ 32 0#32) reducesTo_S8x512_S8_d1 h_S_)
                (broadcastInDim S8 ![] bcast_S_S8 (constantI S_ 32 1#32))))⟩]
      concatenates_S8x1_S8x1_S8x2_d1)
    (broadcastInDim S8 ![] bcast_S_S8 (constantI S_ 32 0#32))

/-- A float array with its column 0 overwritten by zeros: the host's scatter of eight zeros at column index 0. -/
def clearColumn0 (w : S8x512.Idx → F .f32) : S8x512.Idx → F .f32 :=
  Host.scatter scatter_S8x512_S1_S8_0_1_1_0 (fun _ b => b) w
    (broadcastInDim S1 ![] bcast_S_S1 (constantI S_ 32 0#32))
    (broadcastInDim S8 ![] bcast_S_S8 (constant S_ .f32 0x00000000#32))

theorem entry_tokens (c : Dev nD) :
    (V m c main_v23 : S8x512x32.Idx → F .bf16) = truncf .bf16 (m ((c : Thread nD τ).loc main_arg0)) bitsLt_bf16_f32 := by
  show StableHlo.after hostOps0 (fun b => m (c, b)) (Proc.devRef .tc main_v23) = _
  after_results

theorem entry_ids (c : Dev nD) :
    (V m c main_v28 : S8x512x1.Idx → BitVec 32)
      = broadcastInDim S8x512x1 ![0, 1] bcast_S8x512_S8x512x1_0_1 (m ((c : Thread nD τ).loc main_arg1)) := by
  show StableHlo.after hostOps0 (fun b => m (c, b)) (Proc.devRef .tc main_v28) = _
  after_results

theorem entry_docs (c : Dev nD) :
    (V m c main_v26 : S32x16384.Idx → F .bf16)
      = truncf .bf16 (shapeCast S32x16384 (transpose S32x128x128 [2, 0, 1] (m ((c : Thread nD τ).loc main_arg3))
          transposes_S128x128x32_S32x128x128_2_0_1) shapeCasts_S32x128x128_S32x16384) bitsLt_bf16_f32 := by
  show StableHlo.after hostOps0 (fun b => m (c, b)) (Proc.devRef .tc main_v26) = _
  after_results
  rfl

theorem entry_doc_ids (c : Dev nD) :
    (V m c main_v27 : S1x16384.Idx → BitVec 32)
      = shapeCast S1x16384 (m ((c : Thread nD τ).loc main_arg4)) shapeCasts_S128x128_S1x16384 := by
  show StableHlo.after hostOps0 (fun b => m (c, b)) (Proc.devRef .tc main_v27) = _
  after_results
  rfl

set_option maxHeartbeats 16000000 in
theorem entry_weights (c : Dev nD) :
    (V m c main_v29 : S8x1x512.Idx → F .f32)
      = broadcastInDim S8x1x512 ![0, 2] bcast_S8x512_S8x1x512_0_2
          (clearColumn0 (sitofp .f32 (rowMask (m ((c : Thread nD τ).loc main_arg2))))) := by
  show StableHlo.after hostOps0 (fun b => m (c, b)) (Proc.devRef .tc main_v29) = _
  after_results
  rfl

end Cert.KernelIdeal.Entry

end
-- ==== Proof.Column.lean ====
/-
  Setting column 0 to zero, read at an entry.

  The host overwrites column 0 of an 8 × 512 array with eight zeros, one per row: update `n` lands on entry `(n, 0)`
  (`lands`, decided over the eight updates).  So the result is zero on column 0 and the array itself elsewhere: an
  entry keeps its value unless some update lands on it (`overwritten`, by induction over the updates in order).
-/
import proofs.«107947_j62319975465252_2_alg».proof.Proof.Entry
import Idealize.ShloMosaic.Lib.ValueIdx

noncomputable section

namespace Cert.KernelIdeal.Column

open Idealize.ShloMosaic Idealize.ShloMosaic.ValueIdx
open Cert.KernelIdeal Cert.KernelIdeal.Gen Cert.KernelIdeal.Entry

variable {F : FTy → Type} [FloatOps F]

/-- Update `n` of the eight lands on row `n`, column 0. -/
theorem lands : ∀ n : Fin S8.numel,
    scatter_S8x512_S1_S8_0_1_1_0.resultIdx? (S8.rowMajor.symm n) (broadcastInDim S1 ![] bcast_S_S1 (constantI S_ 32 0#32))
      = some (ix2 (⟨n.val, n.isLt⟩ : Fin 8) (0 : Fin 512)) := by
  decide +kernel

/-- Overwriting, update by update in order, the entries a list of updates lands on with one value `z`: an entry ends
    at `z` if some update of the list lands on it, and keeps its value otherwise. -/
theorem overwritten {α : Type} (g : Fin S8.numel → Option S8x512.Idx) (z : α) :
    ∀ (l : List (Fin S8.numel)) (x : S8x512.Idx → α) (i : S8x512.Idx),
      (l.foldl (fun r n => match g n with
          | some j => fun i' => if i' = j then z else r i'
          | none => r) x) i
        = if ∃ n ∈ l, g n = some i then z else x i
  | [], x, i => by simp
  | n :: l, x, i => by
    rw [List.foldl_cons, overwritten g z l]
    cases hg : g n with
    | none =>
      have : (∃ n' ∈ n :: l, g n' = some i) ↔ ∃ n' ∈ l, g n' = some i := by
        constructor
        · rintro ⟨n', hn', h⟩
          rcases List.mem_cons.mp hn' with rfl | hn'
          · rw [hg] at h; exact absurd h (by simp)
          · exact ⟨n', hn', h⟩
        · rintro ⟨n', hn', h⟩; exact ⟨n', List.mem_cons_of_mem _ hn', h⟩
      simp only [this]
    | some j =>
      dsimp only
      by_cases hl : ∃ n' ∈ l, g n' = some i
      · have : ∃ n' ∈ n :: l, g n' = some i := by
          obtain ⟨n', hn', h⟩ := hl; exact ⟨n', List.mem_cons_of_mem _ hn', h⟩
        rw [if_pos hl, if_pos this]
      · rw [if_neg hl]
        by_cases hij : i = j
        · subst hij
          rw [if_pos rfl, if_pos ⟨n, List.mem_cons_self, hg⟩]
        · rw [if_neg hij]
          have : ¬∃ n' ∈ n :: l, g n' = some i := by
            rintro ⟨n', hn', h⟩
            rcases List.mem_cons.mp hn' with rfl | hn'
            · rw [hg] at h; exact hij (Option.some.inj h).symm
            · exact hl ⟨n', hn', h⟩
          rw [if_neg this]

/-- The array with column 0 set to zero, at `(q, s)`: zero at `s = 0`, the array's entry elsewhere. -/
theorem clearColumn0_apply (w : S8x512.Idx → F .f32) (q : Fin 8) (s : Fin 512) :
    clearColumn0 w (ix2 q s) = if s.val = 0 then FloatOps.ofBits .f32 0x00000000#32 else w (ix2 q s) := by
  unfold clearColumn0 Host.scatter
  show (List.foldl (fun r n =>
      match scatter_S8x512_S1_S8_0_1_1_0.resultIdx? (S8.rowMajor.symm n)
          (broadcastInDim S1 ![] bcast_S_S1 (constantI S_ 32 0#32)) with
      | some j => fun i' => if i' = j then (FloatOps.ofBits .f32 0x00000000#32 : F .f32) else r i'
      | none => r) w (List.finRange S8.numel)) (ix2 q s) = _
  refine (overwritten (fun n => scatter_S8x512_S1_S8_0_1_1_0.resultIdx? (S8.rowMajor.symm n)
    (broadcastInDim S1 ![] bcast_S_S1 (constantI S_ 32 0#32))) (FloatOps.ofBits .f32 0x00000000#32) _ w (ix2 q s)).trans ?_
  by_cases hs : s.val = 0
  · rw [if_pos hs, if_pos]
    refine ⟨⟨q.val, q.isLt⟩, List.mem_finRange _, ?_⟩
    rw [lands]
    exact congrArg some (congrArg (ix2 q) (Fin.ext hs.symm))
  · rw [if_neg hs, if_neg]
    rintro ⟨n, -, h⟩
    rw [lands] at h
    have := congrArg (fun i : S8x512.Idx => (i 1).val) (Option.some.inj h)
    exact hs this.symm

end Cert.KernelIdeal.Column

end
-- ==== Proof.Spec.lean ====
/-
  The mathematics both programs compute, free of either program's text.

  For a query row `q` and a document `c` the token score is
      ∑ over query positions s ≥ 1 of  w(q, s) · max over document positions t of  [id(q, s) = id(c, t)] · ⟨Q(q, s), D(c, t)⟩ ,
  where the bracket is the 0/1 indicator of the two token ids being equal and `w` is the query mask read as a number.

  One program multiplies each inner product by the indicator, drops position 0 and sums the 511 remaining
  positions at once.  The other SELECTS between the inner product and zero, zeroes the weight of position 0
  instead of dropping it, and adds the 512 positions up in four runs of 128, each run added to the running total
  of the runs before it.  Over the extended reals these are one number:
    * `x · 1 = x` and `x · 0 = 0` for EVERY extended real `x` (the infinities too), so the product with the
      indicator is the selection (`mul_indicator`, `fold_mul_indicator`);
    * `0 · x = 0`, so a zero weight at position 0 contributes nothing, and addition of extended reals is
      commutative and associative, so four partial sums added in order are the one sum over all positions,
      which is the term at position 0 plus the sum over the others (`four_runs`).
  No finiteness of the inputs is used.
-/
import Idealize.ShloMosaic.PureOps.Ideal
import Idealize.ShloMosaic.PureOps.Ideal.Laws
import Idealize.ShloMosaic.Lib.ValueIdx

noncomputable section

namespace Cert.TokScore

open Idealize.ShloMosaic Idealize.ShloMosaic.ValueIdx

/-- Position `s` of run `j` among the 512 query positions: `128 j + s`. -/
def row (j : Fin 4) (s : Fin 128) : Fin 512 := ⟨128 * j.val + s.val, by have := j.isLt; have := s.isLt; omega⟩

/-- Position `1 + k`: the positions that remain when position 0 is dropped. -/
def tail (k : Fin 511) : Fin 512 := ⟨1 + k.val, by have := k.isLt; omega⟩

/-- Document position `t` of document `c` in the flattened axis of `128 · 128` positions: `128 c + t`. -/
def flat (c t : Fin 128) : Fin 16384 := ⟨128 * c.val + t.val, by have := c.isLt; have := t.isLt; omega⟩

/-- A product with the 0/1 value of a bit is the selection between the factor and zero, at every extended real. -/
theorem mul_indicator (x : EReal) (b : BitVec 1) :
    x * (FloatOps.uitofp (F := Ideal) .f32 b : Ideal .f32) = Scalar.select b x (Ideal.ofBits .f32 0x00000000#32) := by
  by_cases h : b = 1#1
  · subst h
    rw [select_one]
    show x * (((1#1 : BitVec 1).toNat : ℝ) : EReal) = x
    simp
  · obtain rfl := eq_zero_of_ne_one h
    rw [select_zero, Ideal.ofBits_zero_f32]
    show x * (((0#1 : BitVec 1).toNat : ℝ) : EReal) = 0
    simp

/-- The best matching score of one query token against one document: the maximum, from `-∞`, over the document's
    positions of the score where the ids match and of zero where they do not. -/
def best (sc : Fin 128 → EReal) (b : Fin 128 → BitVec 1) : EReal :=
  (Finset.univ : Finset (Fin 128)).fold max (Ideal.ofBits .f32 0xFF800000#32)
    (fun t => Scalar.select (b t) (sc t) (Ideal.ofBits .f32 0x00000000#32))

/-- The same maximum taken over the scores MULTIPLIED by the indicator. -/
theorem fold_mul_indicator (sc : Fin 128 → EReal) (b : Fin 128 → BitVec 1) :
    (Finset.univ : Finset (Fin 128)).fold max (Ideal.ofBits .f32 0xFF800000#32)
      (fun t => sc t * (FloatOps.uitofp (F := Ideal) .f32 (b t) : Ideal .f32)) = best sc b := by
  unfold best
  exact Finset.fold_congr fun t _ => mul_indicator (sc t) (b t)

/-- The sum over the four runs of 128 positions is the sum over all 512 positions. -/
theorem sum_rows (g : Fin 512 → EReal) : ∑ j : Fin 4, ∑ s : Fin 128, g (row j s) = ∑ i : Fin 512, g i := by
  rw [← Fintype.sum_prod_type' (f := fun (j : Fin 4) (s : Fin 128) => g (row j s))]
  refine Fintype.sum_equiv ((finProdFinEquiv (m := 4) (n := 128)).trans (finCongr (by norm_num))) _ _ fun x => ?_
  congr 1
  apply Fin.ext
  simp [row, finProdFinEquiv]
  omega

/-- Four partial sums added in order onto a zero, the term at position 0 being zero, are zero plus the sum over
    the positions from 1 on. -/
theorem four_runs (g : Fin 512 → EReal) (h0 : g ⟨0, by decide⟩ = 0) :
    ((((0 : EReal) + ∑ s : Fin 128, g (row 0 s)) + ∑ s : Fin 128, g (row 1 s)) + ∑ s : Fin 128, g (row 2 s))
        + ∑ s : Fin 128, g (row 3 s)
      = 0 + ∑ k : Fin 511, g (tail k) := by
  have h4 := sum_rows g
  rw [Fin.sum_univ_four] at h4
  rw [zero_add, zero_add, h4, Fin.sum_univ_succ]
  have e0 : g 0 = 0 := h0
  rw [e0, zero_add]
  refine Finset.sum_congr rfl fun k _ => congrArg g (Fin.ext ?_)
  show k.val + 1 = 1 + k.val
  omega

end Cert.TokScore

end
-- ==== Proof.Payload.lean ====
/-
  The kernel body's arithmetic, read at one entry.

  At a grid point the body holds a block of 128 query tokens (`x0`: their 32 coordinates, `x1`: their ids,
  `x2`: their weights), all `128 · 128` document tokens (`x3`: coordinates, laid out coordinate-major over the
  flattened document axis; `x4`: ids) and the running totals `acc` (one per document).  Entry `c` of what it
  stores back is
      acc c  +  ∑ over the block's tokens s of  weight s · best s c ,
  where `best s c` is the maximum over document `c`'s positions `t` of the inner product of token `s` with the
  document token at flattened position `128 c + t` where the two ids are equal, and of zero where they are not
  (`Cert.TokScore.best`).  The two matrix products are plain sums over the contracted axis at the ideal
  instance, the rounding to the narrower float format is the identity there, and the reshapes only rename indices.
-/
import proofs.«107947_j62319975465252_2_alg».proof.Proof.Gen.KernelIdeal.Skeleton
import proofs.«107947_j62319975465252_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.TokScore

/-! ## The two matrix products as sums over the contracted axis -/

theorem row_times_matrix_lhs0 (i : S1x128.Idx) (q : dot_S1x128_S128x128_S1x128_1_0_0_1_n_n.contr.Idx) : (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem row_times_matrix_lhs1 (i : S1x128.Idx) (q : dot_S1x128_S128x128_S1x128_1_0_0_1_n_n.contr.Idx) : (dot_S1x128_S128x128_S1x128_1_0_0_1_n_n.lhsIdx i q 1).val = (q ⟨0, by decide⟩).val :=
  dot_S1x128_S128x128_S1x128_1_0_0_1_n_n.lhsIdx_val_of_single rfl i q
theorem row_times_matrix_rhs0 (i : S1x128.Idx) (q : dot_S1x128_S128x128_S1x128_1_0_0_1_n_n.contr.Idx) : (dot_S1x128_S128x128_S1x128_1_0_0_1_n_n.rhsIdx i q 0).val = (q ⟨0, by decide⟩).val :=
  dot_S1x128_S128x128_S1x128_1_0_0_1_n_n.rhsIdx_val_of_single rfl i q
theorem row_times_matrix_rhs1 (i : S1x128.Idx) (q : dot_S1x128_S128x128_S1x128_1_0_0_1_n_n.contr.Idx) : (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- A row of 128 weights times a 128 × 128 matrix, into a zero accumulator: entry `c` is `∑ k, a k · b k c`. -/
theorem row_times_matrix (a : FVec Ideal S1x128 .bf16) (b : FVec Ideal S128x128 .bf16) (c : Fin 128) :
    matmul dot_S1x128_S128x128_S1x128_1_0_0_1_n_n none a b (constant S1x128 .f32 0x00000000#32) (ix2 (0 : Fin 1) c)
      = ∑ k : Fin 128, a (ix2 (0 : Fin 1) k) * b (ix2 k c) := by
  simp only [matmul]
  rw [Ideal.matmul_constant_zero_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 (0 : Fin 1) c) ((contrEquiv1 dot_S1x128_S128x128_S1x128_1_0_0_1_n_n 128 rfl rfl).symm k) = ix2 (0 : Fin 1) k := funext fun d => Fin.ext (by
    match d with
    | ⟨0, _⟩ => exact row_times_matrix_lhs0 _ _
    | ⟨1, _⟩ => exact (row_times_matrix_lhs1 _ _).trans hk)
  have er : dot_S1x128_S128x128_S1x128_1_0_0_1_n_n.rhsIdx (ix2 (0 : Fin 1) c) ((contrEquiv1 dot_S1x128_S128x128_S1x128_1_0_0_1_n_n 128 rfl rfl).symm k) = ix2 k c := funext fun d => Fin.ext (by
    match d with
    | ⟨0, _⟩ => exact (row_times_matrix_rhs0 _ _).trans hk
    | ⟨1, _⟩ => exact row_times_matrix_rhs1 _ _)
  rw [el, er]

theorem tokens_times_docs_lhs0 (i : S128x16384.Idx) (q : dot_S128x32_S32x16384_S128x16384_1_0_0_1_n_n.contr.Idx) : (dot_S128x32_S32x16384_S128x16384_1_0_0_1_n_n.lhsIdx i q 0).val = (i 0).val := by
  unfold DotDims.lhsIdx
  rw [dif_neg (show ¬(0 : Fin S128x32.rank) ∈ dot_S128x32_S32x16384_S128x16384_1_0_0_1_n_n.lhsBatch by decide), dif_pos (show (0 : Fin S128x32.rank) ∈ dot_S128x32_S32x16384_S128x16384_1_0_0_1_n_n.lhsNonContracting by decide)]
  rfl
theorem tokens_times_docs_lhs1 (i : S128x16384.Idx) (q : dot_S128x32_S32x16384_S128x16384_1_0_0_1_n_n.contr.Idx) : (dot_S128x32_S32x16384_S128x16384_1_0_0_1_n_n.lhsIdx i q 1).val = (q ⟨0, by decide⟩).val :=
  dot_S128x32_S32x16384_S128x16384_1_0_0_1_n_n.lhsIdx_val_of_single rfl i q
theorem tokens_times_docs_rhs0 (i : S128x16384.Idx) (q : dot_S128x32_S32x16384_S128x16384_1_0_0_1_n_n.contr.Idx) : (dot_S128x32_S32x16384_S128x16384_1_0_0_1_n_n.rhsIdx i q 0).val = (q ⟨0, by decide⟩).val :=
  dot_S128x32_S32x16384_S128x16384_1_0_0_1_n_n.rhsIdx_val_of_single rfl i q
theorem tokens_times_docs_rhs1 (i : S128x16384.Idx) (q : dot_S128x32_S32x16384_S128x16384_1_0_0_1_n_n.contr.Idx) : (dot_S128x32_S32x16384_S128x16384_1_0_0_1_n_n.rhsIdx i q 1).val = (i 1).val := by
  unfold DotDims.rhsIdx
  rw [dif_neg (show ¬(1 : Fin S32x16384.rank) ∈ dot_S128x32_S32x16384_S128x16384_1_0_0_1_n_n.rhsBatch by decide), dif_pos (show (1 : Fin S32x16384.rank) ∈ dot_S128x32_S32x16384_S128x16384_1_0_0_1_n_n.rhsNonContracting by decide)]
  rfl

/-- The 128 × 32 block of query tokens times the 32 × 16384 matrix of document tokens, into a zero accumulator:
    entry `(s, n)` is the inner product `∑ k, a s k · b k n`. -/
theorem tokens_times_docs (a : FVec Ideal S128x32 .bf16) (b : FVec Ideal S32x16384 .bf16) (s : Fin 128) (n : Fin 16384) :
    matmul dot_S128x32_S32x16384_S128x16384_1_0_0_1_n_n none a b (constant S128x16384 .f32 0x00000000#32) (ix2 s n)
      = ∑ k : Fin 32, a (ix2 s k) * b (ix2 k n) := by
  simp only [matmul]
  rw [Ideal.matmul_constant_zero_apply, ← Equiv.sum_comp (contrEquiv1 dot_S128x32_S32x16384_S128x16384_1_0_0_1_n_n 32 rfl rfl).symm]
  refine Finset.sum_congr rfl fun k _ => ?_
  have hk := contrEquiv1_symm_val dot_S128x32_S32x16384_S128x16384_1_0_0_1_n_n 32 rfl rfl k
  have el : dot_S128x32_S32x16384_S128x16384_1_0_0_1_n_n.lhsIdx (ix2 s n) ((contrEquiv1 dot_S128x32_S32x16384_S128x16384_1_0_0_1_n_n 32 rfl rfl).symm k) = ix2 s k := funext fun d => Fin.ext (by
    match d with
    | ⟨0, _⟩ => exact tokens_times_docs_lhs0 _ _
    | ⟨1, _⟩ => exact (tokens_times_docs_lhs1 _ _).trans hk)
  have er : dot_S128x32_S32x16384_S128x16384_1_0_0_1_n_n.rhsIdx (ix2 s n) ((contrEquiv1 dot_S128x32_S32x16384_S128x16384_1_0_0_1_n_n 32 rfl rfl).symm k) = ix2 k n := funext fun d => Fin.ext (by
    match d with
    | ⟨0, _⟩ => exact (tokens_times_docs_rhs0 _ _).trans hk
    | ⟨1, _⟩ => exact tokens_times_docs_rhs1 _ _)
  rw [el, er]

/-! ## The maximum over a document's positions, and the reshapes -/

/-- The maximum over the last axis of a 128 × 128 × 128 array, from `-∞`: entry `(s, c)` is the maximum over `t` of
    the array at `(s, c, t)`. -/
theorem max_last_axis (v : FVec Ideal S128x128x128 .f32) (h : S128x128x128.Reduces [2] S128x128) (hφ : FKind.Formats .f32)
    (hacc : (0xFF800000#32 : BitVec (FTy.bits .f32)) = FKind.maximumf.neutral .f32 hφ) (s c : Fin 128) :
    multiReduction .maximumf [2] S128x128 v 0xFF800000#32 h hφ hacc (ix2 s c)
      = (Finset.univ : Finset (Fin 128)).fold max (Ideal.ofBits .f32 0xFF800000#32) (fun t => v (ix3 s c t)) := by
  refine (Ideal.multiReduction_maximumf_single v _ h hφ hacc (ix2 s c)).trans ?_
  refine Finset.fold_congr fun t _ => congrArg v (funext fun d => Fin.ext ?_)
  match d with
  | ⟨0, _⟩ => rfl
  | ⟨1, _⟩ => rfl
  | ⟨2, _⟩ => rfl

/-- The same read through the rounding to the narrower float format, which is the identity at the ideal instance. -/
theorem rounded_max_last_axis (v : FVec Ideal S128x128x128 .f32) (h : S128x128x128.Reduces [2] S128x128) (hφ : FKind.Formats .f32)
    (hacc : (0xFF800000#32 : BitVec (FTy.bits .f32)) = FKind.maximumf.neutral .f32 hφ) (ht : FTy.bits .bf16 < FTy.bits .f32)
    (s c : Fin 128) :
    truncf .bf16 (multiReduction .maximumf [2] S128x128 v 0xFF800000#32 h hφ hacc) ht (ix2 s c)
      = (Finset.univ : Finset (Fin 128)).fold max (Ideal.ofBits .f32 0xFF800000#32) (fun t => v (ix3 s c t)) :=
  (truncf_apply (ψ := .bf16) (multiReduction .maximumf [2] S128x128 v 0xFF800000#32 h hφ hacc) ht (ix2 s c)).trans
    (max_last_axis v h hφ hacc s c)

/-- The 128 × 16384 array cut into 128 documents of 128 positions: `(s, c, t)` reads `(s, 128 c + t)`. -/
theorem split_docs {α : Type} (w : S128x16384.Idx → α) (h : S128x16384.ShapeCasts S128x128x128) (s c t : Fin 128) :
    shapeCast S128x128x128 w h (ix3 s c t) = w (ix2 s (flat c t)) :=
  shapeCast_apply w h _ _ (by
    rw [Shape.rowMajor_val_two, Shape.rowMajor_val_three]
    show s.val * 16384 + (128 * c.val + t.val) = (s.val * 128 + c.val) * 128 + t.val
    omega)

/-- The query block's leading unit axis dropped: `(s, d)` reads `(0, s, d)`. -/
theorem drop_unit_tokens {α : Type} (x : S1x128x32.Idx → α) (h : S1x128x32.ShapeCasts S128x32) (s : Fin 128) (d : Fin 32) :
    shapeCast S128x32 x h (ix2 s d) = x (ix3 (0 : Fin 1) s d) :=
  shapeCast_apply x h _ _ (by
    rw [Shape.rowMajor_val_two, Shape.rowMajor_val_three]
    show ((0 : Fin 1).val * 128 + s.val) * 32 + d.val = s.val * 32 + d.val
    simp)

/-- The id block's leading unit axis dropped: `(s, 0)` reads `(0, s, 0)`. -/
theorem drop_unit_ids {α : Type} (x : S1x128x1.Idx → α) (h : S1x128x1.ShapeCasts S128x1) (s : Fin 128) :
    shapeCast S128x1 x h (ix2 s (0 : Fin 1)) = x (ix3 (0 : Fin 1) s (0 : Fin 1)) :=
  shapeCast_apply x h _ _ (by
    rw [Shape.rowMajor_val_two, Shape.rowMajor_val_three]
    show ((0 : Fin 1).val * 128 + s.val) * 1 + (0 : Fin 1).val = s.val * 1 + (0 : Fin 1).val
    simp)

/-- The weight block's leading unit axis dropped: `(0, s)` reads `(0, 0, s)`. -/
theorem drop_unit_weights {α : Type} (x : S1x1x128.Idx → α) (h : S1x1x128.ShapeCasts S1x128) (s : Fin 128) :
    shapeCast S1x128 x h (ix2 (0 : Fin 1) s) = x (ix3 (0 : Fin 1) (0 : Fin 1) s) :=
  shapeCast_apply x h _ _ (by
    rw [Shape.rowMajor_val_two, Shape.rowMajor_val_three]
    show ((0 : Fin 1).val * 1 + (0 : Fin 1).val) * 128 + s.val = (0 : Fin 1).val * 128 + s.val
    simp)

/-- The weights read through the same rounding. -/
theorem rounded_weights (x : FVec Ideal S1x1x128 .f32) (h : S1x1x128.ShapeCasts S1x128) (ht : FTy.bits .bf16 < FTy.bits .f32)
    (s : Fin 128) :
    truncf .bf16 (shapeCast S1x128 x h) ht (ix2 (0 : Fin 1) s) = x (ix3 (0 : Fin 1) (0 : Fin 1) s) :=
  (truncf_apply (ψ := .bf16) (shapeCast S1x128 x h) ht (ix2 (0 : Fin 1) s)).trans (drop_unit_weights x h s)

/-- The running totals with a unit axis put back: `(0, 0, c)` reads `(0, c)`. -/
theorem add_unit_totals {α : Type} (x : S1x128.Idx → α) (h : S1x128.ShapeCasts S1x1x128) (c : Fin 128) :
    shapeCast S1x1x128 x h (ix3 (0 : Fin 1) (0 : Fin 1) c) = x (ix2 (0 : Fin 1) c) :=
  shapeCast_apply x h _ _ (by
    rw [Shape.rowMajor_val_two, Shape.rowMajor_val_three]
    show (0 : Fin 1).val * 128 + c.val = ((0 : Fin 1).val * 1 + (0 : Fin 1).val) * 128 + c.val
    simp)

/-- A column of 128 ids copied along 16384 columns: `(s, n)` reads `(s, 0)`. -/
theorem spread_token_ids {α : Type} (x : S128x1.Idx → α) (h : S128x1.Broadcasts S128x16384) (s : Fin 128) (n : Fin 16384) :
    broadcastTo S128x16384 x h (ix2 s n) = x (ix2 s (0 : Fin 1)) :=
  broadcastTo_apply x h _ _ (fun d => by
    match d with
    | ⟨0, _⟩ => rfl
    | ⟨1, _⟩ => rfl)

/-- A row of 16384 ids copied down 128 rows: `(s, n)` reads `(0, n)`. -/
theorem spread_doc_ids {α : Type} (x : S1x16384.Idx → α) (h : S1x16384.Broadcasts S128x16384) (s : Fin 128) (n : Fin 16384) :
    broadcastTo S128x16384 x h (ix2 s n) = x (ix2 (0 : Fin 1) n) :=
  broadcastTo_apply x h _ _ (fun d => by
    match d with
    | ⟨0, _⟩ => rfl
    | ⟨1, _⟩ => rfl)

/-! ## The three stored values -/

/-- Entry `c` of the running totals the body stores back: the total it found plus the block's weighted best scores. -/
theorem stored_totals (x0 : FVec Ideal S1x128x32 .bf16) (x3 : FVec Ideal S32x16384 .bf16) (x1 : IVec S1x128x1 32)
    (x4 : IVec S1x16384 32) (x2 : FVec Ideal S1x1x128 .f32) (acc : FVec Ideal S1x128 .f32) (c : Fin 128) :
    k0_pay3 (F := Ideal) x0 x3 x1 x4 x2 acc (ix2 (0 : Fin 1) c)
      = acc (ix2 (0 : Fin 1) c) + ∑ s : Fin 128, x2 (ix3 (0 : Fin 1) (0 : Fin 1) s) *
          best (fun t => ∑ d : Fin 32, x0 (ix3 (0 : Fin 1) s d) * x3 (ix2 d (flat c t)))
               (fun t => IntOp.cmpi .eq (x1 (ix3 (0 : Fin 1) s (0 : Fin 1))) (x4 (ix2 (0 : Fin 1) (flat c t)))) := by
  unfold k0_pay3
  dsimp only
  refine (congrFun (shapeCast_self _ _) _).trans ?_
  refine (addf_apply _ _ _).trans ?_
  refine congrArg (acc (ix2 (0 : Fin 1) c) + ·) ?_
  refine (row_times_matrix _ _ c).trans ?_
  refine Finset.sum_congr rfl fun s _ => ?_
  refine congrArg₂ (· * ·) (rounded_weights x2 _ _ s) ?_
  refine (rounded_max_last_axis _ _ _ _ _ s c).trans ?_
  unfold best
  refine Finset.fold_congr fun t _ => ?_
  refine (split_docs _ _ s c t).trans ?_
  refine (select_apply _ _ _ _).trans ?_
  refine congrArg₂ (fun b x => Scalar.select b x (Ideal.ofBits .f32 0x00000000#32)) ?_ ?_
  · refine congrArg₂ (IntOp.cmpi .eq) ?_ ?_
    · exact (spread_token_ids _ _ s _).trans (drop_unit_ids x1 _ s)
    · exact (spread_doc_ids _ _ s _).trans (congrFun (shapeCast_self x4 _) _)
  · refine (tokens_times_docs _ _ s _).trans ?_
    refine Finset.sum_congr rfl fun d _ => ?_
    exact congrArg₂ (· * ·) (drop_unit_tokens x0 _ s d) (congrFun (shapeCast_self x3 _) _)

/-- The zero block the body stores into the running totals at the first block of a query row. -/
theorem stored_zero (i : S1x128.Idx) : k0_pay2 (F := Ideal) i = 0 := by
  unfold k0_pay2
  refine (congrFun (shapeCast_self _ _) _).trans ?_
  exact Ideal.ofBits_zero_f32

/-- What the body stores into the output block at the last block of a query row: the running totals, with a unit
    axis put back. -/
theorem stored_output (v : FVec Ideal S1x128 .f32) (c : Fin 128) :
    k0_pay1 (F := Ideal) v (ix3 (0 : Fin 1) (0 : Fin 1) c) = v (ix2 (0 : Fin 1) c) := by
  unfold k0_pay1
  exact add_unit_totals v _ c

end Cert.KernelIdeal.Pay

end
-- ==== Proof.KernelValue.lean ====
/-
  The kernel's token score of a query row against a document, in terms of the program's arguments.

  Reading each block of a grid point where it sits in the launched arrays (Blocks.lean), and each launched array in
  terms of the arguments (Entry.lean), one run of the body at point `t` adds to the running total of document `c`
  the sum, over the 128 tokens `s` of block `t mod 4` of row `t / 4`, of
      weight(row, token) · best matching score of the token against document `c`
  (`step_apply`, over Payload.lean's `stored_totals`).  The weight is the row mask read as a number with column 0 set
  to zero (`weightK`).  Over a row's four blocks this is zero plus the sum over the tokens 1 … 511 of the row
  (`row_total`: `Cert.TokScore.four_runs`; the token at position 0 has weight zero and `0 · x = 0`).
-/
import proofs.«107947_j62319975465252_2_alg».proof.Proof.Totals
import proofs.«107947_j62319975465252_2_alg».proof.Proof.Blocks
import proofs.«107947_j62319975465252_2_alg».proof.Proof.Entry
import proofs.«107947_j62319975465252_2_alg».proof.Proof.Column
import proofs.«107947_j62319975465252_2_alg».proof.Proof.Payload
import proofs.«107947_j62319975465252_2_alg».proof.Proof.Spec

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.Totals Cert.KernelIdeal.Blocks Cert.KernelIdeal.Entry
open Cert.KernelIdeal.Column Cert.KernelIdeal.Pay Cert.TokScore

variable (m : (ℓ : Loc nD τ sig) → Buf (Elt Ideal) ℓ)

/-- The arguments, as arrays of extended reals and of words. -/
abbrev argQ (c : Dev nD) : S8x512x32.Idx → EReal := m ((c : Thread nD τ).loc main_arg0)
abbrev argQid (c : Dev nD) : S8x512.Idx → BitVec 32 := m ((c : Thread nD τ).loc main_arg1)
abbrev argMask (c : Dev nD) : S8x512.Idx → BitVec 32 := m ((c : Thread nD τ).loc main_arg2)
abbrev argD (c : Dev nD) : S128x128x32.Idx → EReal := m ((c : Thread nD τ).loc main_arg3)
abbrev argDid (c : Dev nD) : S128x128.Idx → BitVec 32 := m ((c : Thread nD τ).loc main_arg4)

/-- The weight the kernel gives query token `(q, s)`: the row mask as a number, zero on column 0. -/
def weightK (c : Dev nD) : S8x512.Idx → EReal :=
  clearColumn0 (F := Ideal) (sitofp .f32 (rowMask (argMask m c)))

/-- Token `(q, s)`'s contribution to the score of query row `q` against document `c'`. -/
def termK (c : Dev nD) (q : Fin 8) (s : Fin 512) (c' : Fin 128) : EReal :=
  weightK m c (ix2 q s) *
    best (fun t' => ∑ d : Fin 32, argQ m c (ix3 q s d) * argD m c (ix3 c' t' d))
         (fun t' => IntOp.cmpi .eq (argQid m c (ix2 q s)) (argDid m c (ix2 c' t')))

/-- The query row and the block of a grid point. -/
def rowOf (t : Fin cfg0.N) : Fin 8 := ⟨t.val / 4, by have := lt_of_lt_of_eq t.isLt (show cfg0.N = 32 from N_0); omega⟩
def blkOf (t : Fin cfg0.N) : Fin 4 := ⟨t.val % 4, by omega⟩

theorem tok_at (c : Dev nD) (t : Fin cfg0.N) (s : Fin 128) (d : Fin 32) :
    (iblk m c 0 t : S1x128x32.Idx → EReal) (ix3 (0 : Fin 1) s d) = argQ m c (ix3 (rowOf t) (row (blkOf t) s) d) :=
  (block_tokens m c t (ix3 (0 : Fin 1) s d) (ix3 (rowOf t) (row (blkOf t) s) d) rfl rfl rfl).trans
    (congrFun (entry_tokens m c) _)

theorem id_at (c : Dev nD) (t : Fin cfg0.N) (s : Fin 128) :
    (iblk m c 1 t : S1x128x1.Idx → BitVec 32) (ix3 (0 : Fin 1) s (0 : Fin 1)) = argQid m c (ix2 (rowOf t) (row (blkOf t) s)) := by
  refine (block_ids m c t (ix3 (0 : Fin 1) s (0 : Fin 1)) (ix3 (rowOf t) (row (blkOf t) s) (0 : Fin 1)) rfl rfl).trans ?_
  refine (congrFun (entry_ids m c) _).trans ?_
  exact broadcastInDim_apply _ _ _ _ (ix2 (rowOf t) (row (blkOf t) s)) (fun a => by
    match a with
    | ⟨0, _⟩ => rfl
    | ⟨1, _⟩ => rfl)

theorem weight_at (c : Dev nD) (t : Fin cfg0.N) (s : Fin 128) :
    (iblk m c 2 t : S1x1x128.Idx → EReal) (ix3 (0 : Fin 1) (0 : Fin 1) s) = weightK m c (ix2 (rowOf t) (row (blkOf t) s)) := by
  refine (block_weights m c t (ix3 (0 : Fin 1) (0 : Fin 1) s) (ix3 (rowOf t) (0 : Fin 1) (row (blkOf t) s)) rfl rfl).trans ?_
  refine (congrFun (entry_weights m c) _).trans ?_
  exact broadcastInDim_apply _ _ _ _ (ix2 (rowOf t) (row (blkOf t) s)) (fun a => by
    match a with
    | ⟨0, _⟩ => rfl
    | ⟨1, _⟩ => rfl)

theorem doc_at (c : Dev nD) (t : Fin cfg0.N) (d : Fin 32) (c' t' : Fin 128) :
    (iblk m c 3 t : S32x16384.Idx → EReal) (ix2 d (flat c' t')) = argD m c (ix3 c' t' d) := by
  refine (block_docs m c t _).trans ?_
  refine (congrFun (entry_docs m c) _).trans ?_
  show shapeCast S32x16384 (transpose S32x128x128 [2, 0, 1] (argD m c) transposes_S128x128x32_S32x128x128_2_0_1)
      shapeCasts_S32x128x128_S32x16384 (ix2 d (flat c' t')) = _
  refine (shapeCast_apply _ _ _ (ix3 d c' t') (by
    rw [Shape.rowMajor_val_three, Shape.rowMajor_val_two]
    show (d.val * 128 + c'.val) * 128 + t'.val = d.val * 16384 + (128 * c'.val + t'.val)
    omega)).trans ?_
  exact transpose_apply _ _ _ _ (ix3 c' t' d) (fun b => by
    match b with
    | ⟨0, _⟩ => rfl
    | ⟨1, _⟩ => rfl
    | ⟨2, _⟩ => rfl)

theorem doc_id_at (c : Dev nD) (t : Fin cfg0.N) (c' t' : Fin 128) :
    (iblk m c 4 t : S1x16384.Idx → BitVec 32) (ix2 (0 : Fin 1) (flat c' t')) = argDid m c (ix2 c' t') := by
  refine (block_doc_ids m c t _).trans ?_
  refine (congrFun (entry_doc_ids m c) _).trans ?_
  exact shapeCast_apply _ _ _ (ix2 c' t') (by
    rw [Shape.rowMajor_val_two, Shape.rowMajor_val_two]
    show c'.val * 128 + t'.val = (0 : Fin 1).val * 16384 + (128 * c'.val + t'.val)
    simp; omega)

/-- One run of the body at point `t`: the total of document `c'` grows by the block's tokens' contributions. -/
theorem step_apply (c : Dev nD) (t : Fin cfg0.N) (acc : FVec Ideal S1x128 .f32) (c' : Fin 128) :
    step m c t acc (ix2 (0 : Fin 1) c')
      = acc (ix2 (0 : Fin 1) c') + ∑ s : Fin 128, termK m c (rowOf t) (row (blkOf t) s) c' := by
  unfold step
  refine (stored_totals _ _ _ _ _ acc c').trans ?_
  refine congrArg (acc (ix2 (0 : Fin 1) c') + ·) (Finset.sum_congr rfl fun s _ => ?_)
  unfold termK
  refine congrArg₂ (· * ·) (weight_at m c t s) ?_
  refine congrArg₂ best (funext fun t' => Finset.sum_congr rfl fun d _ => ?_) (funext fun t' => ?_)
  · exact congrArg₂ (· * ·) (tok_at m c t s d) (doc_at m c t d c' t')
  · exact congrArg₂ (IntOp.cmpi .eq) (id_at m c t s) (doc_id_at m c t c' t')

/-- The token at position 0 of a row contributes nothing: its weight is zero. -/
theorem term_zero (c : Dev nD) (q : Fin 8) (c' : Fin 128) : termK m c q ⟨0, by decide⟩ c' = 0 := by
  unfold termK weightK
  rw [clearColumn0_apply, if_pos rfl]
  show Ideal.ofBits .f32 0x00000000#32 * _ = 0
  rw [Ideal.ofBits_zero_f32, zero_mul]

/-- The totals after a row's last block: zero plus the contributions of the row's tokens 1 … 511. -/
theorem row_total (c : Dev nD) (q : Fin 8) (c' : Fin 128) (h : 4 * q.val + 3 < cfg0.N) :
    totals m c (4 * q.val + 3) h (ix2 (0 : Fin 1) c') = 0 + ∑ k : Fin 511, termK m c q (tail k) c' := by
  have hq := q.isLt
  rw [totals_row m c (4 * q.val) h (by omega)]
  rw [step_apply, step_apply, step_apply, step_apply, stored_zero]
  have r : ∀ (j : ℕ) (hj : j < 4) (hh : 4 * q.val + j < cfg0.N), rowOf ⟨4 * q.val + j, hh⟩ = q :=
    fun j hj hh => Fin.ext (by show (4 * q.val + j) / 4 = q.val; omega)
  have b : ∀ (j : ℕ) (hj : j < 4) (hh : 4 * q.val + j < cfg0.N), blkOf ⟨4 * q.val + j, hh⟩ = ⟨j, hj⟩ :=
    fun j hj hh => Fin.ext (by show (4 * q.val + j) % 4 = j; omega)
  rw [r 3 (by decide), r 2 (by decide), r 1 (by decide), b 3 (by decide), b 2 (by decide), b 1 (by decide)]
  rw [show rowOf ⟨4 * q.val, by omega⟩ = q from r 0 (by decide) (by omega),
    show blkOf ⟨4 * q.val, by omega⟩ = ⟨0, by decide⟩ from b 0 (by decide) (by omega)]
  exact four_runs (fun s' => termK m c q s' c') (term_zero m c q c')

end Cert.KernelIdeal.KValue

end
-- ==== Proof.OutArray.lean ====
/-
  The array the kernel writes, and the program's result.

  The output block of query row `q` is written back once, after the row's last block, and holds the row's totals
  (Totals.lean, KernelValue.lean): entry `(q, 0, c)` of the written array is zero plus the contributions of the
  row's tokens 1 … 511 to document `c` (`scoresK`).  The eight blocks tile the array, so this is the whole array after
  the launch (`written`).  The host then drops the unit axis, adds the product of the two summary matrices and takes the
  maximum over the eight rows (`finish`): the program's result (`result_eq`).
-/
import proofs.«107947_j62319975465252_2_alg».proof.Proof.KernelValue
import Idealize.ShloMosaic.Lib.StableHlo.Run

noncomputable section

namespace Cert.KernelIdeal.Out

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Totals Cert.KernelIdeal.Blocks Cert.KernelIdeal.KValue
open Cert.KernelIdeal.Pay Cert.TokScore

variable (m : (ℓ : Loc nD τ sig) → Buf (Elt Ideal) ℓ) (ρ : Dev nD → PrngReg)

/-- The token scores as the [8, 1, 128] array the launch writes: entry `(q, 0, c)`. -/
def scoresK (c : Dev nD) : S8x1x128.Idx → EReal :=
  fun i => 0 + ∑ k : Fin 511, termK m c (i 0) (tail k) (i 2)

/-- What the output block holds after a row's last block, entry by entry. -/
theorem out_entry (c : Dev nD) (t : Fin cfg0.N) (h3 : t.val % 4 = 3) (y : S1x1x128.Idx) :
    k0_pay1 (F := Ideal) (totals m c t.val t.isLt) y = 0 + ∑ k : Fin 511, termK m c (rowOf t) (tail k) (y 2) := by
  have hN : t.val < 32 := lt_of_lt_of_eq t.isLt (show cfg0.N = 32 from N_0)
  have e : ∀ (n : ℕ) (hn : n < cfg0.N) (n' : ℕ) (hn' : n' < cfg0.N), n = n' → totals m c n hn = totals m c n' hn' := by
    intro n hn n' hn' h; subst h; rfl
  have ht : t.val = 4 * (rowOf t).val + 3 := by show t.val = 4 * (t.val / 4) + 3; omega
  obtain ⟨a, b, e', rfl⟩ : ∃ (a b : Fin 1) (e' : Fin 128), y = ix3 a b e' := ⟨y 0, y 1, y 2, eq_ix3 y⟩
  obtain rfl : a = 0 := Fin.ext (by omega)
  obtain rfl : b = 0 := Fin.ext (by omega)
  rw [e t.val t.isLt (4 * (rowOf t).val + 3) (by rw [show cfg0.N = 32 from N_0]; omega) ht, stored_output, row_total]

/-- An index of the written array is in point `t`'s block iff each coordinate is in the block's range on its axis. -/
theorem mem_block (t : Fin cfg0.N) (i : S8x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v30).slice (win0_5.rect t)).set ↔ _
  rw [View.set_slice_whole, Rect.mem_set_unit]
  exact Iff.rfl

/-- What a row's last point writes back is that row's block of `scoresK`. -/
theorem flushed_eq (c : Dev nD) (t : Fin cfg0.N) (hf : (cfg0.win 5).flush t = true) :
    (dats m 0 c).flushed 5 t = ((cfg0.win 5).blk t).view.read (Elt Ideal) (scoresK m c) := by
  have h3 : t.val % 4 = 3 := (flush0_5 t).mp hf
  show (cfg0.win 5).cut (grid0.coords t) ((dats m 0 c).after 5 t) = _
  rw [after0_5, output_eq m c t h3]
  funext y
  show k0_pay1 (F := Ideal) (totals m c t.val t.isLt) y = scoresK m c (((cfg0.win 5).blk t).view.emb y)
  rw [out_entry m c t h3 y]
  unfold scoresK
  have e0 : (((cfg0.win 5).blk t).view.emb y) 0 = rowOf t := Fin.ext (by
    have h : (y 0).val < 1 := (y 0).isLt
    show win0_5.index t 0 * 1 + 1 * (y 0).val = t.val / 4
    rw [(index_out t).1]; omega)
  have e2 : (((cfg0.win 5).blk t).view.emb y) 2 = y 2 := Fin.ext (by
    show win0_5.index t 2 * 128 + 1 * (y 2).val = (y 2).val
    rw [(index_out t).2.2]; omega)
  rw [e0, e2]

/-- The array after the launch. -/
theorem written (c : Dev nD) : (dats m 0 c).arrAt 5 cfg0.N = scoresK m c :=
  (dats m 0 c).arrAt_eq_of_cover 5 (scoresK m c) (flushed_eq m c) fun i => by
    have hi0 : (i 0).val < 8 := (i 0).isLt
    have hi1 : (i 1).val < 1 := (i 1).isLt
    have hi2 : (i 2).val < 128 := (i 2).isLt
    have hlt : 4 * (i 0).val + 3 < cfg0.N := by rw [show cfg0.N = 32 from N_0]; omega
    refine ⟨⟨4 * (i 0).val + 3, hlt⟩, (flush0_5 _).mpr (by show (4 * (i 0).val + 3) % 4 = 3; omega), ?_⟩
    rw [mem_block]
    intro a
    obtain ⟨f0, f1, f2⟩ := index_out ⟨4 * (i 0).val + 3, hlt⟩
    have g0 : win0_5.index ⟨4 * (i 0).val + 3, hlt⟩ 0 = (i 0).val := by rw [f0]; show (4 * (i 0).val + 3) / 4 = (i 0).val; omega
    match a with
    | ⟨0, _⟩ => show win0_5.index _ 0 * 1 ≤ (i 0).val ∧ (i 0).val < win0_5.index _ 0 * 1 + 1; rw [g0]; omega
    | ⟨1, _⟩ => show win0_5.index _ 1 * 1 ≤ (i 1).val ∧ (i 1).val < win0_5.index _ 1 * 1 + 1; rw [f1]; omega
    | ⟨2, _⟩ => show win0_5.index _ 2 * 128 ≤ (i 2).val ∧ (i 2).val < win0_5.index _ 2 * 128 + 128; rw [f2]; omega

/-- What the host does with the token scores: the unit axis dropped, the product of the two summary matrices added,
    the maximum over the eight rows taken from `-∞`. -/
def finish (X : S8x128.Idx → EReal) (x5 : S8x768.Idx → EReal) (x6 : S128x768.Idx → EReal) : S128.Idx → EReal :=
  Host.reduce (FloatOps.maximumf (F := Ideal) (φ := .f32))
    (addf (F := Ideal) (φ := .f32) X (Host.dotGeneral (F := Ideal) (φ₁ := .f32) (φ₂ := .f32) dot_S8x768_S768x128_S8x128_1_0_0_1_n_n none x5
      (transpose S768x128 [1, 0] x6 transposes_S128x768_S768x128_1_0)))
    (constant (F := Ideal) S_ .f32 0xFF800000#32) reducesTo_S8x128_S128_d0 h_S_

/-- The program's result, in terms of its arguments. -/
theorem result_eq (c : Dev nD) :
    (Pipeline.afterTail₀ cfgs (dats m) 0 (V0 m) [hostOps1] c main_v35 : S128.Idx → EReal)
      = finish (shapeCast S8x128 (scoresK m c) shapeCasts_S8x1x128_S8x128)
          (m ((c : Thread nD τ).loc main_arg5)) (m ((c : Thread nD τ).loc main_arg6)) := by
  unfold Pipeline.afterTail₀
  show StableHlo.after hostOps1 _ (Proc.devRef .tc main_v35) = _
  after_results
  have e30 : Pipeline.withArrays (cfgs 0).spec c (V0 m c) (fun w => (dats m 0 c).arrAt w (cfgs 0).N) (Proc.devRef .tc main_v30)
      = scoresK m c := (Pipeline.withArrays_arr spec0 launch0.win.arr_inj c _ _ 5).trans (written m c)
  have e5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  rw [e30, e5, e6]
  rfl

/-- The kernel's run, read: the result at `finish` of the token scores, the arguments unchanged. -/
theorem run : θ_run defs (onTc (τ := τ) (main (F := Ideal))) ⟨m, fun _ => 0, ρ⟩ fun r => ∀ c : Dev nD,
      r.2.mem ((c.tc : Thread nD τ).loc main_v35)
        = finish (shapeCast S8x128 (scoresK m c) shapeCasts_S8x1x128_S8x128)
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Out

end
-- ==== Proof.RefValue.lean ====
/-
  The reference's token score, read at one entry.

  Entry `(q, c)` of the reference's sum over query positions is zero plus, over the positions `1 + k` that remain
  after position 0 is sliced away, the best matching score of token `(q, 1 + k)` against document `c` times the
  token's weight.  The best matching score is the maximum, from `-∞`, over the document's positions of the inner
  product times the 0/1 indicator that the two ids are equal — which is `Cert.TokScore.best`, the maximum of the
  SELECTED scores (`fold_mul_indicator`).
-/
import proofs.«107947_j62319975465252_2_alg».proof.Proof.RefRead
import proofs.«107947_j62319975465252_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx
open Cert.TokScore

/-- The product of inner product and indicator at `(q, s, c, t)`. -/
theorem masked_score (x0 : S8x512x32.Idx → EReal) (x1 : S8x512.Idx → BitVec 32) (x3 : S128x128x32.Idx → EReal)
    (x4 : S128x128.Idx → BitVec 32) (q : Fin 8) (s : Fin 512) (c t : Fin 128) :
    val_main_v26 (F := Ideal) x0 x1 x3 x4 (ix4 q s c t)
      = (∑ d : Fin 32, x0 (ix3 q s d) * x3 (ix3 c t d))
          * (FloatOps.uitofp (F := Ideal) .f32 (IntOp.cmpi .eq (x1 (ix2 q s)) (x4 (ix2 c t))) : Ideal .f32) := by
  rw [val_main_v26_apply]
  refine congrArg₂ (· * ·) ?_ ?_
  · rw [val_main_v25_apply]
    refine Finset.sum_congr rfl fun d _ => congrArg₂ (· * ·) (congrArg x0 (funext fun a => Fin.ext ?_)) (congrArg x3 (funext fun a => Fin.ext ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
  · rw [val_main_v24_apply, val_main_v23_apply, val_main_v21_apply, val_main_v19_apply, val_main_v22_apply, val_main_v20_apply]
    refine congrArg (FloatOps.uitofp (F := Ideal) .f32) (congrArg₂ (IntOp.cmpi .eq) (congrArg x1 (funext fun a => Fin.ext ?_)) (congrArg x4 (funext fun a => Fin.ext ?_)))
    · match a with
      | ⟨0, _⟩ => rfl
      | ⟨1, _⟩ => rfl
    · match a with
      | ⟨0, _⟩ => rfl
      | ⟨1, _⟩ => rfl

/-- The best matching score of token `(q, s)` against document `c`. -/
theorem best_score (x0 : S8x512x32.Idx → EReal) (x1 : S8x512.Idx → BitVec 32) (x3 : S128x128x32.Idx → EReal)
    (x4 : S128x128.Idx → BitVec 32) (q : Fin 8) (s : Fin 512) (c : Fin 128) :
    val_main_v27 (F := Ideal) x0 x1 x3 x4 (ix3 q s c)
      = best (fun t => ∑ d : Fin 32, x0 (ix3 q s d) * x3 (ix3 c t d)) (fun t => IntOp.cmpi .eq (x1 (ix2 q s)) (x4 (ix2 c t))) := by
  unfold val_main_v27
  refine (Host.reduce_eq_fold_single FloatOps.maximumf _ _ reducesTo_S8x512x128x128_S8x512x128_d3 (by decide) h_S_ (ix3 q s c)).trans ?_
  refine Eq.trans ?_ (fold_mul_indicator _ _)
  show (Finset.univ : Finset (Fin 128)).fold max (Ideal.ofBits .f32 0xFF800000#32) _ = _
  refine Finset.fold_congr fun t _ => ?_
  refine Eq.trans ?_ (masked_score x0 x1 x3 x4 q s c t)
  refine congrArg (val_main_v26 (F := Ideal) x0 x1 x3 x4) (funext fun a => Fin.ext ?_)
  match a with
  | ⟨0, _⟩ => rfl
  | ⟨1, _⟩ => rfl
  | ⟨2, _⟩ => rfl
  | ⟨3, _⟩ => rfl

/-- Entry `(q, c)` of the reference's token scores. -/
theorem token_score (x0 : S8x512x32.Idx → EReal) (x1 x2 : S8x512.Idx → BitVec 32) (x3 : S128x128x32.Idx → EReal)
    (x4 : S128x128.Idx → BitVec 32) (q : Fin 8) (c : Fin 128) :
    val_main_v33 (F := Ideal) x0 x1 x2 x3 x4 (ix2 q c)
      = 0 + ∑ k : Fin 511,
          best (fun t => ∑ d : Fin 32, x0 (ix3 q (tail k) d) * x3 (ix3 c t d))
               (fun t => IntOp.cmpi .eq (x1 (ix2 q (tail k))) (x4 (ix2 c t)))
            * (val_main_v28 (F := Ideal) x2 (ix2 q (tail k)) : EReal) := by
  rw [val_main_v33_apply]
  refine congrArg₂ (· + ·) Ideal.ofBits_zero_f32 (Finset.sum_congr rfl fun k _ => ?_)
  rw [val_main_v32_apply, val_main_v31_apply]
  refine congrArg₂ (· * ·) ?_ ?_
  · refine Eq.trans ?_ (best_score x0 x1 x3 x4 q (tail k) c)
    refine congrArg (val_main_v27 (F := Ideal) x0 x1 x3 x4) (funext fun a => Fin.ext ?_)
    match a with
    | ⟨0, _⟩ => rfl
    | ⟨1, _⟩ => rfl
    | ⟨2, _⟩ => rfl
  · rw [val_main_v30_apply, val_main_v29_apply]
    refine congrArg (val_main_v28 (F := Ideal) x2) (funext fun a => Fin.ext ?_)
    match a with
    | ⟨0, _⟩ => rfl
    | ⟨1, _⟩ => rfl

end Cert.ReferenceIdeal.RefValue

end
-- ==== Proof.Bridge.lean ====
/-
  The two programs compute one function of the arguments.

  Both token scores are zero plus a sum over the query positions 1 … 511 of the row; term by term the kernel's is
  `weight · best` and the reference's `best · weight` (commutativity), the best matching scores are one expression of
  the arguments, and away from column 0 the kernel's weight — the row mask as a number with column 0 zeroed — is the
  reference's, the row mask as a number (`weights_agree`; the row mask is the same host operations in both programs,
  `mask_agree`).  What the host does afterwards is the same in both (`finish_agree`).
-/
import proofs.«107947_j62319975465252_2_alg».proof.Proof.OutArray
import proofs.«107947_j62319975465252_2_alg».proof.Proof.RefValue

noncomputable section

namespace Cert.Bridge

open Idealize.ShloMosaic Idealize.ShloMosaic.TcCoe Idealize.SL.Sem Idealize.ShloMosaic.ValueIdx
open Cert.KernelIdeal.KValue Cert.KernelIdeal.Out Cert.KernelIdeal.Entry Cert.KernelIdeal.Column Cert.TokScore

/-- The row mask: the kernel's host operations and the reference's are the same operations. -/
theorem mask_agree (x2 : Cert.KernelIdeal.S8x512.Idx → BitVec 32) :
    rowMask x2 = Cert.ReferenceIdeal.ReadP.val_main_v18 (F := Ideal) x2 := rfl

/-- Away from column 0 the kernel's weight of a query token is the reference's. -/
theorem weights_agree (m : (ℓ : Loc Cert.KernelIdeal.nD Cert.KernelIdeal.τ Cert.KernelIdeal.sig) → Buf (Elt Ideal) ℓ)
    (c : Dev Cert.KernelIdeal.nD) (q : Fin 8) (k : Fin 511) :
    weightK m c (ix2 q (tail k)) = (Cert.ReferenceIdeal.ReadP.val_main_v28 (F := Ideal) (argMask m c) (ix2 q (tail k)) : EReal) := by
  unfold weightK
  rw [clearColumn0_apply, if_neg (by show ¬(1 + k.val = 0); omega), mask_agree]
  rfl

/-- The token scores agree, entry by entry. -/
theorem scores_agree (m : (ℓ : Loc Cert.KernelIdeal.nD Cert.KernelIdeal.τ Cert.KernelIdeal.sig) → Buf (Elt Ideal) ℓ)
    (c : Dev Cert.KernelIdeal.nD) :
    Cert.ReferenceIdeal.ReadP.val_main_v33 (F := Ideal) (argQ m c) (argQid m c) (argMask m c) (argD m c) (argDid m c)
      = shapeCast Cert.KernelIdeal.S8x128 (scoresK m c) Cert.KernelIdeal.Gen.shapeCasts_S8x1x128_S8x128 := by
  funext j
  obtain ⟨q, c', rfl⟩ : ∃ (q : Fin 8) (c' : Fin 128), j = ix2 q c' := ⟨j 0, j 1, eq_ix2 j⟩
  rw [Cert.ReferenceIdeal.RefValue.token_score]
  refine Eq.trans ?_ (shapeCast_apply _ _ _ (ix3 q (0 : Fin 1) c') (by
    rw [Shape.rowMajor_val_three, Shape.rowMajor_val_two]
    show (q.val * 1 + (0 : Fin 1).val) * 128 + c'.val = q.val * 128 + c'.val
    simp)).symm
  unfold scoresK
  refine congrArg (0 + ·) (Finset.sum_congr rfl fun k _ => ?_)
  unfold termK
  rw [weights_agree, mul_comm]

/-- What the host does after the token scores is the same in both programs. -/
theorem finish_agree (x0 : Cert.ReferenceIdeal.S8x512x32.Idx → EReal) (x1 x2 : Cert.ReferenceIdeal.S8x512.Idx → BitVec 32)
    (x3 : Cert.ReferenceIdeal.S128x128x32.Idx → EReal) (x4 : Cert.ReferenceIdeal.S128x128.Idx → BitVec 32)
    (x5 : Cert.ReferenceIdeal.S8x768.Idx → EReal) (x6 : Cert.ReferenceIdeal.S128x768.Idx → EReal) :
    Cert.ReferenceIdeal.ReadP.val_main_v37 (F := Ideal) x0 x1 x2 x3 x4 x5 x6
      = finish (Cert.ReferenceIdeal.ReadP.val_main_v33 (F := Ideal) x0 x1 x2 x3 x4) x5 x6 := rfl

end Cert.Bridge

end
-- ==== Proof.lean ====
/-
  The certificate of a token-match scoring kernel against its jnp reference.

  For eight query rows of 512 tokens and 128 documents of 128 tokens (each token a vector of 32 coordinates with an
  integer id), the score of query row q against document c is
      ∑ over query positions s ≥ 1 of  w(q, s) · max over t of  [id(q, s) = id(c, t)] · ⟨Q(q, s), D(c, t)⟩ ,
  with `w` the attention mask after one position per row is cleared, read as a number; to it the product of two
  summary matrices is added, and the result is the maximum over the eight rows.

  The reference multiplies by the 0/1 indicator, slices position 0 away and sums the rest at once.  The kernel selects
  between the inner product and zero, gives position 0 the weight zero, and walks each row in four blocks of 128
  positions on an 8 × 4 grid, keeping running totals in a scratch buffer that it zeroes at a row's first block and
  copies out at the row's last.  Over the extended reals the two are one function of the arguments, and no finiteness
  of the inputs is needed:  `x · 1 = x`, `x · 0 = 0 = 0 · x` for every extended real, and sums of extended reals may be
  regrouped and reordered (Proof/Spec.lean).

    frame_Kernel, frame_KernelIdeal    the generated frame runs.
    frame_ReferenceIdeal               the reference's run with its result dropped.
    preserves_Kernel_KernelIdeal       the idealization rewrote nothing: `True`.
    algebraic_KernelIdeal_ReferenceIdeal
        kernel side: what one run of the body stores (Proof/Payload.lean, Proof/Cases.lean), the running totals over a row
        (Proof/Totals.lean), the blocks and the launched arrays in terms of the arguments (Proof/Blocks.lean,
        Proof/Entry.lean, Proof/Column.lean), the row's score (Proof/KernelValue.lean), the written array and the
        host's last operations (Proof/OutArray.lean);
        reference side: its run (Proof/RefRun.lean) read at an entry (Proof/RefRead.lean, Proof/RefValue.lean);
        the two meet in Proof/Bridge.lean.
-/
import proofs.«107947_j62319975465252_2_alg».proof.Defs
import proofs.«107947_j62319975465252_2_alg».proof.Proof.Gen.Kernel
import proofs.«107947_j62319975465252_2_alg».proof.Proof.Gen.Kernel.Skeleton
import proofs.«107947_j62319975465252_2_alg».proof.Proof.Gen.Kernel.Launch
import proofs.«107947_j62319975465252_2_alg».proof.Proof.Gen.Kernel.Points
import proofs.«107947_j62319975465252_2_alg».proof.Proof.Gen.Kernel.Frame
import proofs.«107947_j62319975465252_2_alg».proof.Proof.Gen.KernelIdeal
import proofs.«107947_j62319975465252_2_alg».proof.Proof.Gen.KernelIdeal.Skeleton
import proofs.«107947_j62319975465252_2_alg».proof.Proof.Gen.KernelIdeal.Launch
import proofs.«107947_j62319975465252_2_alg».proof.Proof.Gen.KernelIdeal.Points
import proofs.«107947_j62319975465252_2_alg».proof.Proof.Gen.KernelIdeal.Frame
import proofs.«107947_j62319975465252_2_alg».proof.Proof.Gen.ReferenceIdeal
import proofs.«107947_j62319975465252_2_alg».proof.Proof.Gen.Pre_finite_inputs
import proofs.«107947_j62319975465252_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal instance the kernel's result is `finish` of its token scores and the reference's is the same function of
    its own; on arguments that agree the token scores are equal entry by entry (`Cert.Bridge.scores_agree`). -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6⟩ := hagree c
  rw [a0, a1, a2, a3, a4, a5, a6]
  refine (Cert.ReferenceIdeal.ReadP.val_main_v37_eq _ _ _ _ _ _ _).trans ?_
  refine (Cert.Bridge.finish_agree _ _ _ _ _ _ _).trans ?_
  exact congrArg (fun X => Cert.KernelIdeal.Out.finish X _ _) (Cert.Bridge.scores_agree m c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
